-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S8x50 : Shape := ⟨2, ![8, 50]⟩
abbrev S1x50 : Shape := ⟨2, ![1, 50]⟩
abbrev S50x4 : Shape := ⟨2, ![50, 4]⟩
abbrev S1x4 : Shape := ⟨2, ![1, 4]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S8x50 : S_.BroadcastsInDim S8x50 (![] : Fin 0 → Fin S8x50.rank)
  reducesTo_S8x50_S_d0_1 : S8x50.ReducesTo [0, 1] S_
  bcast_S_S1x50 : S_.BroadcastsInDim S1x50 (![] : Fin 0 → Fin S1x50.rank)
  reducesTo_S1x50_S_d0_1 : S1x50.ReducesTo [0, 1] S_
  bcast_S_S50x4 : S_.BroadcastsInDim S50x4 (![] : Fin 0 → Fin S50x4.rank)
  reducesTo_S50x4_S_d0_1 : S50x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x4 .f32) (main_v13 : IVec S_ 1) (main_v16 : IVec S50x4 1) : IVec S_ 1 :=
  let main_c_5 : IVec S_ 1 := constantI S_ 1 1#1
  let main_v17 : IVec S_ 1 := (fun x v => Host.reduce IntOp.andi x v reducesTo_S50x4_S_d0_1 h_S_) main_v16 main_c_5
  let main_v18 : IVec S_ 1 := andi main_v13 main_v17
  let main_v19 : FVec F S1x4 .f32 := Host.absf main_arg4
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  main_v23

def fn {F : FTy → Type} [FloatOps F] (main_arg0 : FVec F S1048576x8 .f32) (main_arg1 : FVec F S8x50 .f32) (main_arg2 : FVec F S1x50 .f32) (main_arg3 : FVec F S50x4 .f32) (main_arg4 : FVec F S1x4 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S8x50 .f32 := Host.absf main_arg1
  let main_cst_0 : FVec F S_ .f32 := constant S_ .f32 0x7F800000#32
  let main_v5 : FVec F S8x50 .f32 := broadcastInDim S8x50 ![] bcast_S_S8x50 main_cst_0
  let main_v6 : IVec S8x50 1 := cmpf .olt main_v4 main_v5
  let main_c_1 : IVec S_ 1 := constantI S_ 1 1#1
  let main_v7 : IVec S_ 1 := (fun x v => Host.reduce IntOp.andi x v reducesTo_S8x50_S_d0_1 h_S_) main_v6 main_c_1
  let main_v8 : IVec S_ 1 := andi main_v3 main_v7
  let main_v9 : FVec F S1x50 .f32 := Host.absf main_arg2
  let main_cst_2 : FVec F S_ .f32 := constant S_ .f32 0x7F800000#32
  let main_v10 : FVec F S1x50 .f32 := broadcastInDim S1x50 ![] bcast_S_S1x50 main_cst_2
  let main_v11 : IVec S1x50 1 := cmpf .olt main_v9 main_v10
  let main_c_3 : IVec S_ 1 := constantI S_ 1 1#1
  let main_v12 : IVec S_ 1 := (fun x v => Host.reduce IntOp.andi x v reducesTo_S1x50_S_d0_1 h_S_) main_v11 main_c_3
  let main_v13 : IVec S_ 1 := andi main_v8 main_v12
  let main_v14 : FVec F S50x4 .f32 := Host.absf main_arg3
  let main_cst_4 : FVec F S_ .f32 := constant S_ .f32 0x7F800000#32
  let main_v15 : FVec F S50x4 .f32 := broadcastInDim S50x4 ![] bcast_S_S50x4 main_cst_4
  let main_v16 : IVec S50x4 1 := cmpf .olt main_v14 main_v15
  fn_part1 (F := F) main_arg4 main_v13 main_v16
-- ==== Kernel.lean ====
abbrev S1048576x8 : Shape := ⟨2, ![1048576, 8]⟩
abbrev S8x50 : Shape := ⟨2, ![8, 50]⟩
abbrev S1x50 : Shape := ⟨2, ![1, 50]⟩
abbrev S50x4 : Shape := ⟨2, ![50, 4]⟩
abbrev S1x4 : Shape := ⟨2, ![1, 4]⟩
abbrev S_ : Shape := ⟨0, ![]⟩
abbrev S8x64 : Shape := ⟨2, ![8, 64]⟩
abbrev S1 : Shape := ⟨1, ![1]⟩
abbrev S64x4 : Shape := ⟨2, ![64, 4]⟩
abbrev S16x16 : Shape := ⟨2, ![16, 16]⟩
abbrev S16x1x16x1 : Shape := ⟨4, ![16, 1, 16, 1]⟩
abbrev S1x8x1x64 : Shape := ⟨4, ![1, 8, 1, 64]⟩
abbrev S16x8x16x64 : Shape := ⟨4, ![16, 8, 16, 64]⟩
abbrev S128x1024 : Shape := ⟨2, ![128, 1024]⟩
abbrev S1x64x1x4 : Shape := ⟨4, ![1, 64, 1, 4]⟩
abbrev S16x64x16x4 : Shape := ⟨4, ![16, 64, 16, 4]⟩
abbrev S1024x64 : Shape := ⟨2, ![1024, 64]⟩
abbrev S1x64 : Shape := ⟨2, ![1, 64]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S1x1x1x4 : Shape := ⟨4, ![1, 1, 1, 4]⟩
abbrev S1x1x16x4 : Shape := ⟨4, ![1, 1, 16, 4]⟩
abbrev S65536x128 : Shape := ⟨2, ![65536, 128]⟩
abbrev S65536x64 : Shape := ⟨2, ![65536, 64]⟩
abbrev S1024x128 : Shape := ⟨2, ![1024, 128]⟩
abbrev S1024x1024 : Shape := ⟨2, ![1024, 1024]⟩
abbrev S1048576x4 : Shape := ⟨2, ![1048576, 4]⟩

abbrev nBuf : Space → Nat
  | .hbm => 48
  | .vmem => 8
  | .smem => 0
  | _ => 0

abbrev bufTy : (tb : Table) → Fin (tcTables nBuf tb) → BufTy
  | .hbm, ⟨0, _⟩ => ⟨S1048576x8, .f32⟩
  | .hbm, ⟨1, _⟩ => ⟨S8x50, .f32⟩
  | .hbm, ⟨2, _⟩ => ⟨S1x50, .f32⟩
  | .hbm, ⟨3, _⟩ => ⟨S50x4, .f32⟩
  | .hbm, ⟨4, _⟩ => ⟨S1x4, .f32⟩
  | .hbm, ⟨5, _⟩ => ⟨S_, .f32⟩
  | .hbm, ⟨6, _⟩ => ⟨S8x64, .f32⟩
  | .hbm, ⟨7, _⟩ => ⟨S_, .i32⟩
  | .hbm, ⟨8, _⟩ => ⟨S1, .i32⟩
  | .hbm, ⟨9, _⟩ => ⟨S8x64, .f32⟩
  | .hbm, ⟨10, _⟩ => ⟨S_, .f32⟩
  | .hbm, ⟨11, _⟩ => ⟨S64x4, .f32⟩
  | .hbm, ⟨12, _⟩ => ⟨S_, .i32⟩
  | .hbm, ⟨13, _⟩ => ⟨S1, .i32⟩
  | .hbm, ⟨14, _⟩ => ⟨S64x4, .f32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i1⟩
  | .hbm, ⟨21, _⟩ => ⟨S16x16, .f32⟩
  | .hbm, ⟨22, _⟩ => ⟨S16x1x16x1, .f32⟩
  | .hbm, ⟨23, _⟩ => ⟨S1x8x1x64, .f32⟩
  | .hbm, ⟨24, _⟩ => ⟨S16x8x16x64, .f32⟩
  | .hbm, ⟨25, _⟩ => ⟨S16x8x16x64, .f32⟩
  | .hbm, ⟨26, _⟩ => ⟨S16x8x16x64, .f32⟩
  | .hbm, ⟨27, _⟩ => ⟨S128x1024, .f32⟩
  | .hbm, ⟨28, _⟩ => ⟨S16x1x16x1, .f32⟩
  | .hbm, ⟨29, _⟩ => ⟨S1x64x1x4, .f32⟩
  | .hbm, ⟨30, _⟩ => ⟨S16x64x16x4, .f32⟩
  | .hbm, ⟨31, _⟩ => ⟨S16x64x16x4, .f32⟩
  | .hbm, ⟨32, _⟩ => ⟨S16x64x16x4, .f32⟩
  | .hbm, ⟨33, _⟩ => ⟨S1024x64, .f32⟩
  | .hbm, ⟨34, _⟩ => ⟨S_, .f32⟩
  | .hbm, ⟨35, _⟩ => ⟨S1x64, .f32⟩
  | .hbm, ⟨36, _⟩ => ⟨S_, .i32⟩
  | .hbm, ⟨37, _⟩ => ⟨S1, .i32⟩
  | .hbm, ⟨38, _⟩ => ⟨S1x64, .f32⟩
  | .hbm, ⟨39, _⟩ => ⟨S1x1x1x64, .f32⟩
  | .hbm, ⟨40, _⟩ => ⟨S1x1x16x64, .f32⟩
  | .hbm, ⟨41, _⟩ => ⟨S1x1024, .f32⟩
  | .hbm, ⟨42, _⟩ => ⟨S1x1x1x4, .f32⟩
  | .hbm, ⟨43, _⟩ => ⟨S1x1x16x4, .f32⟩
  | .hbm, ⟨44, _⟩ => ⟨S1x64, .f32⟩
  | .hbm, ⟨45, _⟩ => ⟨S65536x128, .f32⟩
  | .hbm, ⟨46, _⟩ => ⟨S65536x64, .f32⟩
  | .hbm, ⟨47, _⟩ => ⟨S1048576x4, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8x64 : S_.BroadcastsInDim S8x64 (![] : Fin 0 → Fin S8x64.rank)
  bcast_S_S1 : S_.BroadcastsInDim S1 (![] : Fin 0 → Fin S1.rank)
  bcast_S_S64x4 : S_.BroadcastsInDim S64x4 (![] : Fin 0 → Fin S64x4.rank)
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S8x64_S1x8x1x64_1_3 : S8x64.BroadcastsInDim S1x8x1x64 (![1, 3] : Fin 2 → Fin S1x8x1x64.rank)
  bcast_S16x1x16x1_S16x8x16x64_0_1_2_3 : S16x1x16x1.BroadcastsInDim S16x8x16x64 (![0, 1, 2, 3] : Fin 4 → Fin S16x8x16x64.rank)
  bcast_S1x8x1x64_S16x8x16x64_0_1_2_3 : S1x8x1x64.BroadcastsInDim S16x8x16x64 (![0, 1, 2, 3] : Fin 4 → Fin S16x8x16x64.rank)
  shapeCasts_S16x8x16x64_S128x1024 : S16x8x16x64.ShapeCasts S128x1024
  bcast_S64x4_S1x64x1x4_1_3 : S64x4.BroadcastsInDim S1x64x1x4 (![1, 3] : Fin 2 → Fin S1x64x1x4.rank)
  bcast_S16x1x16x1_S16x64x16x4_0_1_2_3 : S16x1x16x1.BroadcastsInDim S16x64x16x4 (![0, 1, 2, 3] : Fin 4 → Fin S16x64x16x4.rank)
  bcast_S1x64x1x4_S16x64x16x4_0_1_2_3 : S1x64x1x4.BroadcastsInDim S16x64x16x4 (![0, 1, 2, 3] : Fin 4 → Fin S16x64x16x4.rank)
  shapeCasts_S16x64x16x4_S1024x64 : S16x64x16x4.ShapeCasts S1024x64
  bcast_S_S1x64 : S_.BroadcastsInDim S1x64 (![] : Fin 0 → Fin S1x64.rank)
  shapeCasts_S1x64_S1x1x1x64 : S1x64.ShapeCasts S1x1x1x64
  bcast_S1x1x1x64_S1x1x16x64_0_1_2_3 : S1x1x1x64.BroadcastsInDim S1x1x16x64 (![0, 1, 2, 3] : Fin 4 → Fin S1x1x16x64.rank)
  shapeCasts_S1x1x16x64_S1x1024 : S1x1x16x64.ShapeCasts S1x1024
  shapeCasts_S1x4_S1x1x1x4 : S1x4.ShapeCasts S1x1x1x4
  bcast_S1x1x1x4_S1x1x16x4_0_1_2_3 : S1x1x1x4.BroadcastsInDim S1x1x16x4 (![0, 1, 2, 3] : Fin 4 → Fin S1x1x16x4.rank)
  shapeCasts_S1x1x16x4_S1x64 : S1x1x16x4.ShapeCasts S1x64
  shapeCasts_S1048576x8_S65536x128 : S1048576x8.ShapeCasts S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  shapeCasts_S65536x64_S1048576x4 : S65536x64.ShapeCasts S1048576x4
  scatter_S8x64_S1_S8x50_01_n_1_0_wf : ScatterDims.WF S8x64 S1 S8x50 [0, 1] [] [1] 0
  scatter_S64x4_S1_S50x4_01_n_0_0_wf : ScatterDims.WF S64x4 S1 S50x4 [0, 1] [] [0] 0
  scatter_S1x64_S1_S1x50_01_n_1_0_wf : ScatterDims.WF S1x64 S1 S1x50 [0, 1] [] [1] 0
  dot_S1024x128_S128x1024_S1024x1024_1_0_0_1_n_n_wf : DotDims.WF S1024x128 S128x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S65536x64.size a
  hwx0_5 : ∀ i : grid0.Coords, EltTy.bits .f32 = 32 ∨ (Rect.block (s := S65536x64) S1024x64.size (cc0_transform_5 i) (hinb0_5 i)).WholeWords (EltTy.packing .f32)

variable [Facts₀]

def scatter_S8x64_S1_S8x50_01_n_1_0 : ScatterDims S8x64 S1 S8x50 where
  updateWindowDims := [0, 1]
  insertedWindowDims := []
  scatterDimsToOperandDims := [1]
  indexVectorDim := 0
  wf := scatter_S8x64_S1_S8x50_01_n_1_0_wf
def scatter_S64x4_S1_S50x4_01_n_0_0 : ScatterDims S64x4 S1 S50x4 where
  updateWindowDims := [0, 1]
  insertedWindowDims := []
  scatterDimsToOperandDims := [0]
  indexVectorDim := 0
  wf := scatter_S64x4_S1_S50x4_01_n_0_0_wf
def scatter_S1x64_S1_S1x50_01_n_1_0 : ScatterDims S1x64 S1 S1x50 where
  updateWindowDims := [0, 1]
  insertedWindowDims := []
  scatterDimsToOperandDims := [1]
  indexVectorDim := 0
  wf := scatter_S1x64_S1_S1x50_01_n_1_0_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v23) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S8x50 : Shape := ⟨2, ![8, 50]⟩
abbrev S1x50 : Shape := ⟨2, ![1, 50]⟩
abbrev S50x4 : Shape := ⟨2, ![50, 4]⟩
abbrev S1x4 : Shape := ⟨2, ![1, 4]⟩
abbrev S0 : Shape := ⟨1, ![0]⟩
abbrev S_ : Shape := ⟨0, ![]⟩
abbrev S8x128 : Shape := ⟨2, ![8, 128]⟩
abbrev S1 : Shape := ⟨1, ![1]⟩
abbrev S1x128 : Shape := ⟨2, ![1, 128]⟩
abbrev S128x128 : Shape := ⟨2, ![128, 128]⟩
abbrev S2 : Shape := ⟨1, ![2]⟩
abbrev S1048576x128 : Shape := ⟨2, ![1048576, 128]⟩
abbrev S256x8 : Shape := ⟨2, ![256, 8]⟩
abbrev S256x128 : Shape := ⟨2, ![256, 128]⟩
abbrev S1048576x4 : Shape := ⟨2, ![1048576, 4]⟩

abbrev nBuf : Space → Nat
  | .hbm => 34
  | .vmem => 8
  | .smem => 0
  | _ => 0

abbrev bufTy : (tb : Table) → Fin (tcTables nBuf tb) → BufTy
  | .hbm, ⟨0, _⟩ => ⟨S1048576x8, .f32⟩
  | .hbm, ⟨1, _⟩ => ⟨S8x50, .f32⟩
  | .hbm, ⟨2, _⟩ => ⟨S1x50, .f32⟩
  | .hbm, ⟨3, _⟩ => ⟨S50x4, .f32⟩
  | .hbm, ⟨4, _⟩ => ⟨S1x4, .f32⟩
  | .hbm, ⟨5, _⟩ => ⟨S0, .i32⟩
  | .hbm, ⟨6, _⟩ => ⟨S_, .f32⟩
  | .hbm, ⟨7, _⟩ => ⟨S8x128, .f32⟩
  | .hbm, ⟨8, _⟩ => ⟨S_, .i32⟩
  | .hbm, ⟨9, _⟩ => ⟨S1, .i32⟩
  | .hbm, ⟨10, _⟩ => ⟨S8x128, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S1x128, .f32⟩
  | .hbm, ⟨16, _⟩ => ⟨S_, .f32⟩
  | .hbm, ⟨17, _⟩ => ⟨S128x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x128, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S1x128, .f32⟩
  | .hbm, ⟨29, _⟩ => ⟨S_, .f32⟩
  | .hbm, ⟨30, _⟩ => ⟨S1048576x8, .f32⟩
  | .hbm, ⟨31, _⟩ => ⟨S1048576x8, .f32⟩
  | .hbm, ⟨32, _⟩ => ⟨S1048576x128, .f32⟩
  | .hbm, ⟨33, _⟩ => ⟨S1048576x4, .f32⟩
  | .local _ .vmem, ⟨0, _⟩ => ⟨S256x8, .f32⟩
  | .local _ .vmem, ⟨1, _⟩ => ⟨S256x8, .f32⟩
  | .local _ .vmem, ⟨2, _⟩ => ⟨S8x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_c_7 : Ref sig .tc := ⟨.hbm, 26, rfl⟩
abbrev main_v12 : Ref sig .tc := ⟨.hbm, 27, rfl⟩
abbrev main_v13 : Ref sig .tc := ⟨.hbm, 28, rfl⟩
abbrev main_cst_8 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  hz_S0 : S0.numel = 0
  bcast_S_S8x128 : S_.BroadcastsInDim S8x128 (![] : Fin 0 → Fin S8x128.rank)
  bcast_S_S1 : S_.BroadcastsInDim S1 (![] : Fin 0 → Fin S1.rank)
  bcast_S_S1x128 : S_.BroadcastsInDim S1x128 (![] : Fin 0 → Fin S1x128.rank)
  bcast_S_S128x128 : S_.BroadcastsInDim S128x128 (![] : Fin 0 → Fin S128x128.rank)
  concatenates_S1_S1_S2_d0 : Shape.Concatenates [S1, S1] S2 0
  bcast_S_S1048576x8 : S_.BroadcastsInDim S1048576x8 (![] : Fin 0 → Fin S1048576x8.rank)
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  slices_S1048576x128_S1048576x4_0_0 : S1048576x128.Slices ![0, 0] S1048576x4
  scatter_S8x128_S1_S8x50_01_n_1_0_wf : ScatterDims.WF S8x128 S1 S8x50 [0, 1] [] [1] 0
  scatter_S1x128_S1_S1x50_01_n_1_0_wf : ScatterDims.WF S1x128 S1 S1x50 [0, 1] [] [1] 0
  scatter_S128x128_S2_S50x4_01_n_01_0_wf : ScatterDims.WF S128x128 S2 S50x4 [0, 1] [] [0, 1] 0
  scatter_S1x128_S1_S1x4_01_n_1_0_wf : ScatterDims.WF S1x128 S1 S1x4 [0, 1] [] [1] 0
  scatter_S1048576x8_S0_S1048576x8_01_n_n_0_wf : ScatterDims.WF S1048576x8 S0 S1048576x8 [0, 1] [] [] 0
  dot_S256x8_S8x128_S256x128_1_0_0_1_n_n_wf : DotDims.WF S256x8 S8x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S1048576x8.size a
  hwx0_0 : ∀ i : grid0.Coords, EltTy.bits .f32 = 32 ∨ (Rect.block (s := S1048576x8) S256x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S1048576x128.size a
  hwx0_5 : ∀ i : grid0.Coords, EltTy.bits .f32 = 32 ∨ (Rect.block (s := S1048576x128) S256x128.size (cc0_transform_5 i) (hinb0_5 i)).WholeWords (EltTy.packing .f32)

variable [Facts₀]

def scatter_S8x128_S1_S8x50_01_n_1_0 : ScatterDims S8x128 S1 S8x50 where
  updateWindowDims := [0, 1]
  insertedWindowDims := []
  scatterDimsToOperandDims := [1]
  indexVectorDim := 0
  wf := scatter_S8x128_S1_S8x50_01_n_1_0_wf
def scatter_S1x128_S1_S1x50_01_n_1_0 : ScatterDims S1x128 S1 S1x50 where
  updateWindowDims := [0, 1]
  insertedWindowDims := []
  scatterDimsToOperandDims := [1]
  indexVectorDim := 0
  wf := scatter_S1x128_S1_S1x50_01_n_1_0_wf
def scatter_S128x128_S2_S50x4_01_n_01_0 : ScatterDims S128x128 S2 S50x4 where
  updateWindowDims := [0, 1]
  insertedWindowDims := []
  scatterDimsToOperandDims := [0, 1]
  indexVectorDim := 0
  wf := scatter_S128x128_S2_S50x4_01_n_01_0_wf
def scatter_S1x128_S1_S1x4_01_n_1_0 : ScatterDims S1x128 S1 S1x4 where
  updateWindowDims := [0, 1]
  insertedWindowDims := []
  scatterDimsToOperandDims := [1]
  indexVectorDim := 0
  wf := scatter_S1x128_S1_S1x4_01_n_1_0_wf
def scatter_S1048576x8_S0_S1048576x8_01_n_n_0 : ScatterDims S1048576x8 S0 S1048576x8 where
  updateWindowDims := [0, 1]
  insertedWindowDims := []
  scatterDimsToOperandDims := []
  indexVectorDim := 0
  wf := scatter_S1048576x8_S0_S1048576x8_01_n_n_0_wf
def dot_S256x8_S8x128_S256x128_1_0_0_1_n_n : DotDims S256x8 S8x128 S256x128 where
  lhsContracting := [1]
  rhsContracting := [0]
  lhsNonContracting := [0]
  rhsNonContracting := [1]
  lhsBatch := []
  rhsBatch := []
  wf := dot_S256x8_S8x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v15) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The specification both programs are compared with, and the arrays each region is handed, as index-by-index
  functions of the five argument arrays over the extended reals.

  The network is  q = relu (x · w1 + b1) · w2 + b2  with x : [1048576, 8], w1 : [8, 50], b1 : [1, 50],
  w2 : [50, 4], b2 : [1, 4]:  hidden unit l of batch row r is  max (Σ_k x[r,k] · w1[k,l] + b1[0,l]) 0,  and
  output a of row r is  Σ_l hid[r,l] · w2[l,a] + b2[0,a]  (`G`).

  One program pads the hidden axis with zero columns to 128 (and the output axis to 128); the other pads it to 64
  and packs sixteen batch rows into one row of a block-diagonal product (`kron (I₁₆, ·)`).  The padded and packed
  arrays are named here; every extra term they add to a sum is a product with an exact zero.
-/
import Idealize.ShloMosaic.PureOps.Ideal
import Idealize.ShloMosaic.Lib.ValueIdx

noncomputable section

open scoped BigOperators

namespace Cert.Mlp

open Idealize.ShloMosaic Idealize.ShloMosaic.ValueIdx

abbrev SX : Shape := ⟨2, ![1048576, 8]⟩
abbrev SW1 : Shape := ⟨2, ![8, 50]⟩
abbrev SB1 : Shape := ⟨2, ![1, 50]⟩
abbrev SW2 : Shape := ⟨2, ![50, 4]⟩
abbrev SB2 : Shape := ⟨2, ![1, 4]⟩
abbrev SO : Shape := ⟨2, ![1048576, 4]⟩

/-- Hidden unit `l` of batch row `r`: the affine form of the row, clamped below at zero. -/
def hid (x : SX.Idx → EReal) (w1 : SW1.Idx → EReal) (b1 : SB1.Idx → EReal) (r : Fin 1048576) (l : Fin 50) : EReal :=
  max ((∑ k : Fin 8, x (ix2 r k) * w1 (ix2 k l)) + b1 (ix2 0 l)) 0

/-- The network's output, index by index. -/
def G (x : SX.Idx → EReal) (w1 : SW1.Idx → EReal) (b1 : SB1.Idx → EReal) (w2 : SW2.Idx → EReal) (b2 : SB2.Idx → EReal) :
    SO.Idx → EReal :=
  fun i => (∑ l : Fin 50, hid x w1 b1 (i 0) l * w2 (ix2 l (i 1))) + b2 (ix2 0 (i 1))

/-! ## Zero padding -/

/-- `w1` with zero columns appended up to width `n`. -/
def w1pad (n : Nat) (w1 : SW1.Idx → EReal) : (⟨2, ![8, n]⟩ : Shape).Idx → EReal :=
  fun i => if h : (i 1).val < 50 then w1 (ix2 (i 0) ⟨(i 1).val, h⟩) else 0
/-- `b1` with zero columns appended up to width `n`. -/
def b1pad (n : Nat) (b1 : SB1.Idx → EReal) : (⟨2, ![1, n]⟩ : Shape).Idx → EReal :=
  fun i => if h : (i 1).val < 50 then b1 (ix2 (i 0) ⟨(i 1).val, h⟩) else 0
/-- `w2` with zero rows appended up to height 64. -/
def w2pad64 (w2 : SW2.Idx → EReal) : (⟨2, ![64, 4]⟩ : Shape).Idx → EReal :=
  fun i => if h : (i 0).val < 50 then w2 (ix2 ⟨(i 0).val, h⟩ (i 1)) else 0
/-- `w2` in the top-left corner of a zero 128 × 128 matrix. -/
def w2pad128 (w2 : SW2.Idx → EReal) : (⟨2, ![128, 128]⟩ : Shape).Idx → EReal :=
  fun i => if h : (i 0).val < 50 ∧ (i 1).val < 4 then w2 (ix2 ⟨(i 0).val, h.1⟩ ⟨(i 1).val, h.2⟩) else 0
/-- `b2` with zero columns appended up to width 128. -/
def b2pad128 (b2 : SB2.Idx → EReal) : (⟨2, ![1, 128]⟩ : Shape).Idx → EReal :=
  fun i => if h : (i 1).val < 4 then b2 (ix2 (i 0) ⟨(i 1).val, h⟩) else 0

/-! ## Sixteen batch rows packed into one row -/

/-- `x` read sixteen batch rows to a row: packed row `p`, lane `c` is batch row `16 p + c / 8`, feature `c % 8`. -/
def xpk (x : SX.Idx → EReal) : (⟨2, ![65536, 128]⟩ : Shape).Idx → EReal :=
  fun i => x (ix2 ⟨(i 0).val * 16 + (i 1).val / 8, by have := (i 0).isLt; have := (i 1).isLt; simp only [Matrix.cons_val_zero, Matrix.cons_val_one, Matrix.head_cons] at *; omega⟩
    ⟨(i 1).val % 8, Nat.mod_lt _ (by norm_num)⟩)
/-- The block-diagonal first layer `kron (I₁₆, w1pad 64)`: entry (8 i + k, 64 j + l) is `w1pad[k, l]` on the diagonal
    blocks `i = j` and zero off them. -/
def w1big (w1 : SW1.Idx → EReal) : (⟨2, ![128, 1024]⟩ : Shape).Idx → EReal :=
  fun i => if (i 0).val / 8 = (i 1).val / 64 then
      w1pad 64 w1 (ix2 ⟨(i 0).val % 8, Nat.mod_lt _ (by norm_num)⟩ ⟨(i 1).val % 64, Nat.mod_lt _ (by norm_num)⟩) else 0
/-- The block-diagonal second layer `kron (I₁₆, w2pad64)`: entry (64 i + l, 4 j + a) is `w2pad64[l, a]` on the diagonal
    blocks and zero off them. -/
def w2big (w2 : SW2.Idx → EReal) : (⟨2, ![1024, 64]⟩ : Shape).Idx → EReal :=
  fun i => if (i 0).val / 64 = (i 1).val / 4 then
      w2pad64 w2 (ix2 ⟨(i 0).val % 64, Nat.mod_lt _ (by norm_num)⟩ ⟨(i 1).val % 4, Nat.mod_lt _ (by norm_num)⟩) else 0
/-- The padded first bias repeated sixteen times along the lanes. -/
def b1big (b1 : SB1.Idx → EReal) : (⟨2, ![1, 1024]⟩ : Shape).Idx → EReal :=
  fun i => b1pad 64 b1 (ix2 (i 0) ⟨(i 1).val % 64, Nat.mod_lt _ (by norm_num)⟩)
/-- The second bias repeated sixteen times along the lanes. -/
def b2big (b2 : SB2.Idx → EReal) : (⟨2, ![1, 64]⟩ : Shape).Idx → EReal :=
  fun i => b2 (ix2 (i 0) ⟨(i 1).val % 4, Nat.mod_lt _ (by norm_num)⟩)

end Cert.Mlp

end
-- ==== Proof.KerArrays1.lean ====
/-
  The packed input and the repeated second bias as the region finds them.

  The input array is handed to the region through one reshape [1048576, 8] → [65536, 128]: row-major positions are kept,
  so packed row p, lane c is batch row 16 p + c / 8, feature c % 8.  The second bias goes through
  [1, 4] → [1, 1, 1, 4] → (repeated along a new axis of extent 16) [1, 1, 16, 4] → [1, 64]: lane c reads b2[0, c % 4].
-/
import proofs.«101277_g2000404146032023_pallasbulk_324_6_alg».proof.Proof.Gen.KernelIdeal.Frame
import proofs.«101277_g2000404146032023_pallasbulk_324_6_alg».proof.Proof.Spec
import Idealize.ShloMosaic.Lib.IdealHost
import Idealize.ShloMosaic.Lib.Pipeline.Value

noncomputable section

open scoped BigOperators

namespace Cert.KernelIdeal.Arrays

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## The input, sixteen batch rows to a packed row -/

/-- A reshape keeps row-major positions: position 128 p + c of the packed array is position 8 (16 p + c / 8) + c % 8 of
    the input. -/
theorem reshape_x (x : S1048576x8.Idx → EReal) (h : S1048576x8.ShapeCasts S65536x128) :
    shapeCast S65536x128 x h = Cert.Mlp.xpk x := by
  funext i
  unfold Cert.Mlp.xpk
  refine shapeCast_apply x h i _ ?_
  rw [Shape.rowMajor_val_two, Shape.rowMajor_val_two]
  have h1 := idx2_lt1 i
  show ((i 0).val * 16 + (i 1).val / 8) * 8 + (i 1).val % 8 = (i 0).val * 128 + (i 1).val
  omega

/-- The region's first operand is the input array reshaped; nothing else touches it. -/
theorem V_x_term : (Gen.V m c main_v23 : S65536x128.Idx → EReal)
    = shapeCast S65536x128 (m ((c : Thread nD τ).loc main_arg0) : S1048576x8.Idx → EReal) Facts₀.shapeCasts_S1048576x8_S65536x128 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Read index by index: sixteen batch rows to a packed row. -/
theorem V_x : (Gen.V m c main_v23 : S65536x128.Idx → EReal) = Cert.Mlp.xpk (m ((c : Thread nD τ).loc main_arg0)) :=
  (V_x_term m c).trans (reshape_x _ _)

/-! ## The second bias, repeated sixteen times -/

/-- [1, 4] → [1, 1, 1, 4] → sixteen copies along the third axis → [1, 64]: lane c of the result is entry c % 4. -/
theorem tile_b2 (b : S1x4.Idx → EReal) (h1 : S1x4.ShapeCasts S1x1x1x4)
    (h2 : S1x1x1x4.BroadcastsInDim S1x1x16x4 (![0, 1, 2, 3] : Fin 4 → Fin S1x1x16x4.rank)) (h3 : S1x1x16x4.ShapeCasts S1x64) :
    shapeCast S1x64 (broadcastInDim S1x1x16x4 ![0, 1, 2, 3] h2 (shapeCast S1x1x1x4 b h1)) h3 = Cert.Mlp.b2big b := by
  funext i
  obtain ⟨p, q, rfl⟩ : ∃ (p : Fin 1) (q : Fin 64), i = ix2 p q := ⟨i 0, i 1, eq_ix2 i⟩
  have hp : p.val = 0 := by omega
  have hq := q.isLt
  unfold Cert.Mlp.b2big
  refine (shapeCast_apply _ h3 (ix2 p q)
    (ix4 (0 : Fin 1) (0 : Fin 1) (⟨q.val / 4, by omega⟩ : Fin 16) (⟨q.val % 4, Nat.mod_lt _ (by norm_num)⟩ : Fin 4)) ?_).trans ?_
  · rw [Shape.rowMajor_val_four, Shape.rowMajor_val_two]
    show ((0 * 1 + 0) * 16 + q.val / 4) * 4 + q.val % 4 = p.val * 64 + q.val
    omega
  refine (broadcastInDim_apply _ h2 _ _
    (ix4 (0 : Fin 1) (0 : Fin 1) (0 : Fin 1) (⟨q.val % 4, Nat.mod_lt _ (by norm_num)⟩ : Fin 4))
    (fun a => match a with | ⟨0, _⟩ => rfl | ⟨1, _⟩ => rfl | ⟨2, _⟩ => rfl | ⟨3, _⟩ => rfl)).trans ?_
  refine shapeCast_apply b h1 _ _ ?_
  rw [Shape.rowMajor_val_four, Shape.rowMajor_val_two]
  show p.val * 4 + q.val % 4 = ((0 * 1 + 0) * 1 + 0) * 4 + q.val % 4
  omega

/-- The region's fifth operand is the second bias through that chain. -/
theorem V_b2_term : (Gen.V m c main_v22 : S1x64.Idx → EReal)
    = shapeCast S1x64 (broadcastInDim S1x1x16x4 ![0, 1, 2, 3] Facts₀.bcast_S1x1x1x4_S1x1x16x4_0_1_2_3
        (shapeCast S1x1x1x4 (m ((c : Thread nD τ).loc main_arg4) : S1x4.Idx → EReal) Facts₀.shapeCasts_S1x4_S1x1x1x4))
        Facts₀.shapeCasts_S1x1x16x4_S1x64 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Read index by index: the second bias repeated along the lanes. -/
theorem V_b2 : (Gen.V m c main_v22 : S1x64.Idx → EReal) = Cert.Mlp.b2big (m ((c : Thread nD τ).loc main_arg4)) :=
  (V_b2_term m c).trans (tile_b2 _ _ _ _)

end Cert.KernelIdeal.Arrays
end
-- ==== Proof.LibScatterSet.lean ====
/-
  Reading a scatter whose combiner returns the update ("set") at an index.

  A scatter folds over the update indices in row-major order; update index `j` overwrites the operand entry
  `resultIdx? j`.  When every update index lands inside the operand, at `ρ j`, the result at an entry `i` is
  determined as soon as all update indices landing on `i` carry one common value: it is that value when some
  update index lands on `i`, and the operand's own entry when none does.  Nothing here evaluates the fold: the
  statements are by induction over the list of update indices.

  The second half reads `resultIdx?` for a scatter whose start indices are all zero and whose update axes are the
  operand's axes in order: update index `j` lands at the entry with `j`'s own coordinates.  For two axes this gives
  the closed form of "write a smaller matrix into the top-left corner of a larger one".
-/
import Idealize.ShloMosaic.PureOps.ShapeOps
import Idealize.ShloMosaic.Lib.ValueIdx

namespace Idealize.ShloMosaic

variable {s si u : Shape} {w : Nat} {α : Type}

/-- The fold behind a "set" scatter, read at one entry `i`: if every update index `j` lands at `ρ j`, all update
    indices landing on `i` carry the value `a`, and either some update index still in the list lands on `i` or the
    accumulator already holds `a` there, then the folded array holds `a` at `i`. -/
theorem Host.scatter_fold_set_apply (d : ScatterDims s si u) (idx : IVec si w) (upd : u.Idx → α)
    (ρ : u.Idx → s.Idx) (hρ : ∀ j, d.resultIdx? j idx = some (ρ j)) (i : s.Idx) (a : α)
    (hval : ∀ j, ρ j = i → upd j = a) :
    ∀ (l : List (Fin u.numel)) (x : s.Idx → α), ((∃ n ∈ l, ρ (u.rowMajor.symm n) = i) ∨ x i = a) →
      l.foldl (fun r n =>
        match d.resultIdx? (u.rowMajor.symm n) idx with
        | some i => fun i' => if i' = i then (fun _ b => b) (r i) (upd (u.rowMajor.symm n)) else r i'
        | none => r) x i = a := by
  intro l
  induction l with
  | nil =>
    intro x h
    rcases h with ⟨n, hn, _⟩ | h
    · exact absurd hn (List.not_mem_nil)
    · exact h
  | cons n l ih =>
    intro x h
    rw [List.foldl_cons]
    apply ih
    simp only [hρ]
    by_cases hn : ρ (u.rowMajor.symm n) = i
    · right
      rw [if_pos hn.symm]
      exact hval _ hn
    · rcases h with ⟨n', hn', hh⟩ | h
      · rcases List.mem_cons.1 hn' with rfl | hl
        · exact absurd hh hn
        · exact Or.inl ⟨n', hl, hh⟩
      · right
        rw [if_neg (fun e => hn e.symm)]
        exact h

/-- A "set" scatter read at an entry.  Every update index `j` lands at `ρ j`; all update indices landing on `i`
    carry the value `a`; and either some update index lands on `i`, or the operand holds `a` there already.
    Then the result holds `a` at `i`. -/
theorem Host.scatter_set_apply (d : ScatterDims s si u) (x : s.Idx → α) (idx : IVec si w) (upd : u.Idx → α)
    (ρ : u.Idx → s.Idx) (hρ : ∀ j, d.resultIdx? j idx = some (ρ j)) (i : s.Idx) (a : α)
    (hval : ∀ j, ρ j = i → upd j = a) (hhit : (∃ j, ρ j = i) ∨ x i = a) :
    Host.scatter d (fun _ b => b) x idx upd i = a := by
  unfold Host.scatter
  apply Host.scatter_fold_set_apply d idx upd ρ hρ i a hval
  rcases hhit with ⟨j, hj⟩ | h
  · exact Or.inl ⟨u.rowMajor j, List.mem_finRange _, by rw [Equiv.symm_apply_apply]; exact hj⟩
  · exact Or.inr h

/-- An entry some update index lands on, the landing map being injective, holds that update. -/
theorem Host.scatter_set_hit (d : ScatterDims s si u) (x : s.Idx → α) (idx : IVec si w) (upd : u.Idx → α)
    (ρ : u.Idx → s.Idx) (hρ : ∀ j, d.resultIdx? j idx = some (ρ j)) (hinj : Function.Injective ρ) (j : u.Idx) :
    Host.scatter d (fun _ b => b) x idx upd (ρ j) = upd j :=
  Host.scatter_set_apply d x idx upd ρ hρ (ρ j) (upd j) (fun j' h => by rw [hinj h]) (Or.inl ⟨j, rfl⟩)

/-- An entry no update index lands on keeps the operand's value. -/
theorem Host.scatter_set_miss (d : ScatterDims s si u) (x : s.Idx → α) (idx : IVec si w) (upd : u.Idx → α)
    (ρ : u.Idx → s.Idx) (hρ : ∀ j, d.resultIdx? j idx = some (ρ j)) (i : s.Idx) (hmiss : ∀ j, ρ j ≠ i) :
    Host.scatter d (fun _ b => b) x idx upd i = x i :=
  Host.scatter_set_apply d x idx upd ρ hρ i (x i) (fun j h => absurd h (hmiss j)) (Or.inr rfl)

/-! ## A window at the origin -/

/-- With all start indices zero, every window starts at zero on every operand axis. -/
theorem ScatterDims.start_eq_zero (d : ScatterDims s si u) (idx : IVec si w) (hidx : ∀ k, (idx k).toInt = 0)
    (j : u.Idx) (a : Fin s.rank) : d.start j idx a = 0 := by
  unfold ScatterDims.start
  split
  · exact hidx _
  · rfl

/-- A scatter whose windows start at zero and whose window coordinate on operand axis `a` is the update index's
    coordinate on axis `σ a` (an update axis no longer than the operand's) lands update index `j` at the entry with
    coordinates `j ∘ σ`. -/
theorem ScatterDims.resultIdx?_origin (d : ScatterDims s si u) (idx : IVec si w) (σ : Fin s.rank → Fin u.rank)
    (hle : ∀ a, u.size (σ a) ≤ s.size a) (hstart : ∀ j a, d.start j idx a = 0)
    (hwin : ∀ j a, d.window j a = (j (σ a)).val) (j : u.Idx) :
    d.resultIdx? j idx = some (fun a => ⟨(j (σ a)).val, lt_of_lt_of_le (j (σ a)).isLt (hle a)⟩) := by
  unfold ScatterDims.resultIdx?
  rw [dif_pos (by
    intro a
    rw [hstart, hwin]
    have h1 := (j (σ a)).isLt
    have h2 := hle a
    omega)]
  congr 1
  funext a
  apply Fin.ext
  simp only [hstart, hwin]
  omega

/-! ## Two axes: a matrix written into the top-left corner of another -/

open Idealize.ShloMosaic.ValueIdx

/-- For two-axis shapes, when both update axes are window axes in order and no operand axis is inserted, the window
    coordinate on an operand axis is the update index's coordinate on the same axis. -/
theorem ScatterDims.window_id₂ {n0 n1 m0 m1 : Nat} (d : ScatterDims ⟨2, ![n0, n1]⟩ si ⟨2, ![m0, m1]⟩)
    (hu : d.updateWindowDims = [0, 1]) (hi : d.insertedWindowDims = [])
    (j : (⟨2, ![m0, m1]⟩ : Shape).Idx) (a : Fin 2) :
    d.window j a = (j a).val := by
  obtain ⟨uw, iw, sd, iv, wf⟩ := d
  simp only at hu hi
  subst hu hi
  fin_cases a
  · rfl
  · rfl

/-- A "set" scatter of an `m0 × m1` matrix into an `n0 × n1` one with all start indices zero: the result is the
    update on the top-left `m0 × m1` corner and the operand elsewhere. -/
theorem Host.scatter_set_origin₂ {n0 n1 m0 m1 : Nat} (d : ScatterDims ⟨2, ![n0, n1]⟩ si ⟨2, ![m0, m1]⟩)
    (hu : d.updateWindowDims = [0, 1]) (hi : d.insertedWindowDims = [])
    (x : (⟨2, ![n0, n1]⟩ : Shape).Idx → α) (idx : IVec si w) (hidx : ∀ k, (idx k).toInt = 0)
    (upd : (⟨2, ![m0, m1]⟩ : Shape).Idx → α) (h0 : m0 ≤ n0) (h1 : m1 ≤ n1) (i : (⟨2, ![n0, n1]⟩ : Shape).Idx) :
    Host.scatter d (fun _ b => b) x idx upd i
      = if h : (i 0).val < m0 ∧ (i 1).val < m1 then upd (ix2 ⟨(i 0).val, h.1⟩ ⟨(i 1).val, h.2⟩) else x i := by
  have hle : ∀ a : Fin 2, (⟨2, ![m0, m1]⟩ : Shape).size a ≤ (⟨2, ![n0, n1]⟩ : Shape).size a := by
    intro a; fin_cases a
    · exact h0
    · exact h1
  have hρ := d.resultIdx?_origin idx (fun a => a) hle (d.start_eq_zero idx hidx) (d.window_id₂ hu hi)
  apply Host.scatter_set_apply d x idx upd _ hρ
  · intro j hj
    have e0 : (j 0).val = (i 0).val := congrArg (fun f => (f 0).val) hj
    have e1 : (j 1).val = (i 1).val := congrArg (fun f => (f 1).val) hj
    have hlt : (i 0).val < m0 ∧ (i 1).val < m1 := ⟨e0 ▸ (j 0).isLt, e1 ▸ (j 1).isLt⟩
    rw [dif_pos hlt]
    congr 1
    rw [eq_ix2 j]
    congr 1 <;> exact Fin.ext (by assumption)
  · by_cases hlt : (i 0).val < m0 ∧ (i 1).val < m1
    · left
      refine ⟨ix2 ⟨(i 0).val, hlt.1⟩ ⟨(i 1).val, hlt.2⟩, ?_⟩
      funext a
      fin_cases a <;> rfl
    · right
      rw [dif_neg hlt]

end Idealize.ShloMosaic
-- ==== Proof.KerArrays2.lean ====
/-
  The two block-diagonal weight matrices and the repeated first bias as the region finds them.

  The identity matrix is built as "row number = column number" converted to a float: 1 on the diagonal, 0 off it.
  A Kronecker product kron (E, W) with E : [16, 16], W : [a, b] is formed by repeating E along two new axes to
  [16, a, 16, b], repeating W along two new axes to the same shape, multiplying entry by entry and reshaping to
  [16 a, 16 b]: entry (a i + k, b j + l) is E[i, j] · W[k, l].  With E the identity that is W[k, l] on the diagonal
  blocks (1 · w = w) and an exact zero off them (0 · w = 0 in the extended reals, whatever w is).
  A weight padded with zeros is a "set" scatter of the weight into the top-left corner of a zero matrix.
-/
import proofs.«101277_g2000404146032023_pallasbulk_324_6_alg».proof.Proof.Gen.KernelIdeal.Frame
import proofs.«101277_g2000404146032023_pallasbulk_324_6_alg».proof.Proof.Spec
import Idealize.ShloMosaic.Lib.IdealHost
import Idealize.ShloMosaic.Lib.Pipeline.Value
import proofs.«101277_g2000404146032023_pallasbulk_324_6_alg».proof.Proof.LibScatterSet

noncomputable section

open scoped BigOperators

namespace Cert.KernelIdeal.Arrays

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## Zero matrices and the padded weights -/

/-- A broadcast of the zero word reads zero everywhere. -/
theorem zeros_apply (S : Shape) (h : S_.BroadcastsInDim S (![] : Fin 0 → Fin S.rank)) (i : S.Idx) :
    broadcastInDim S ![] h (constant (F := Ideal) S_ .f32 0x00000000#32) i = (0 : EReal) := by
  rw [broadcastInDim_scalar_apply]
  exact Ideal.ofBits_zero_f32

/-- The start index vector of the three scatters is the zero word. -/
theorem idx0 (h : S_.BroadcastsInDim S1 (![] : Fin 0 → Fin S1.rank)) (k : S1.Idx) :
    (broadcastInDim S1 ![] h (constantI S_ 32 0#32) k).toInt = 0 := by
  rw [broadcastInDim_scalar_apply]
  rfl

/-- The first weight written into the left 50 columns of a zero [8, 64] matrix. -/
theorem pad_w1 (h : S_.BroadcastsInDim S8x64 (![] : Fin 0 → Fin S8x64.rank)) (h' : S_.BroadcastsInDim S1 (![] : Fin 0 → Fin S1.rank))
    (w : S8x50.Idx → EReal) :
    Host.scatter scatter_S8x64_S1_S8x50_01_n_1_0 (fun _ b => b)
        (broadcastInDim S8x64 ![] h (constant (F := Ideal) S_ .f32 0x00000000#32))
        (broadcastInDim S1 ![] h' (constantI S_ 32 0#32)) w
      = Cert.Mlp.w1pad 64 w := by
  funext k
  rw [Host.scatter_set_origin₂ scatter_S8x64_S1_S8x50_01_n_1_0 rfl rfl _ _ (idx0 h') w (by norm_num) (by norm_num) k]
  unfold Cert.Mlp.w1pad
  have hk0 := idx2_lt0 k
  by_cases hk : (k 1).val < 50
  · rw [dif_pos ⟨hk0, hk⟩, dif_pos hk]
    rfl
  · rw [dif_neg (fun hh => hk hh.2), dif_neg hk]
    exact zeros_apply _ h k

/-- The second weight written into the top 50 rows of a zero [64, 4] matrix. -/
theorem pad_w2 (h : S_.BroadcastsInDim S64x4 (![] : Fin 0 → Fin S64x4.rank)) (h' : S_.BroadcastsInDim S1 (![] : Fin 0 → Fin S1.rank))
    (w : S50x4.Idx → EReal) :
    Host.scatter scatter_S64x4_S1_S50x4_01_n_0_0 (fun _ b => b)
        (broadcastInDim S64x4 ![] h (constant (F := Ideal) S_ .f32 0x00000000#32))
        (broadcastInDim S1 ![] h' (constantI S_ 32 0#32)) w
      = Cert.Mlp.w2pad64 w := by
  funext k
  rw [Host.scatter_set_origin₂ scatter_S64x4_S1_S50x4_01_n_0_0 rfl rfl _ _ (idx0 h') w (by norm_num) (by norm_num) k]
  unfold Cert.Mlp.w2pad64
  have hk1 := idx2_lt1 k
  by_cases hk : (k 0).val < 50
  · rw [dif_pos ⟨hk, hk1⟩, dif_pos hk]
    rfl
  · rw [dif_neg (fun hh => hk hh.1), dif_neg hk]
    exact zeros_apply _ h k

/-- The first bias written into the left 50 columns of a zero [1, 64] row. -/
theorem pad_b1 (h : S_.BroadcastsInDim S1x64 (![] : Fin 0 → Fin S1x64.rank)) (h' : S_.BroadcastsInDim S1 (![] : Fin 0 → Fin S1.rank))
    (b : S1x50.Idx → EReal) :
    Host.scatter scatter_S1x64_S1_S1x50_01_n_1_0 (fun _ b => b)
        (broadcastInDim S1x64 ![] h (constant (F := Ideal) S_ .f32 0x00000000#32))
        (broadcastInDim S1 ![] h' (constantI S_ 32 0#32)) b
      = Cert.Mlp.b1pad 64 b := by
  funext k
  rw [Host.scatter_set_origin₂ scatter_S1x64_S1_S1x50_01_n_1_0 rfl rfl _ _ (idx0 h') b (by norm_num) (by norm_num) k]
  unfold Cert.Mlp.b1pad
  have hk0 := idx2_lt0 k
  by_cases hk : (k 1).val < 50
  · rw [dif_pos ⟨hk0, hk⟩, dif_pos hk]
    rfl
  · rw [dif_neg (fun hh => hk hh.2), dif_neg hk]
    exact zeros_apply _ h k

/-! ## The identity matrix -/

/-- Two words of numbers below 16 are equal exactly when the numbers are. -/
theorem ofNat32_eq_iff (i j : Fin 16) : (BitVec.ofNat 32 i.val = BitVec.ofNat 32 j.val) ↔ i = j := by
  constructor
  · intro h
    have h2 := congrArg BitVec.toNat h
    simp only [BitVec.toNat_ofNat] at h2
    have hi := i.isLt
    have hj := j.isLt
    exact Fin.ext (by omega)
  · rintro rfl; rfl

/-- "Row number (plus the zero word) equals column number", converted to a float: 1 on the diagonal, 0 off it. -/
theorem eye_apply (h : S_.BroadcastsInDim S16x16 (![] : Fin 0 → Fin S16x16.rank)) (i j : Fin 16) :
    (uitofp .f32 (cmpi .eq (addi (iotaInDim S16x16 32 0) (broadcastInDim S16x16 ![] h (constantI S_ 32 0#32)))
        (iotaInDim S16x16 32 1)) : FVec Ideal S16x16 .f32) (ix2 i j) = if i = j then (1 : EReal) else 0 := by
  show (((IntOp.cmpi .eq (IntOp.addi (BitVec.ofNat 32 i.val) (0#32)) (BitVec.ofNat 32 j.val)).toNat : ℝ) : EReal) = _
  unfold IntOp.cmpi IntOp.addi
  rw [BitVec.add_zero]
  by_cases hij : i = j
  · subst hij
    simp
  · rw [if_neg hij]
    have hne : ¬ (BitVec.ofNat 32 i.val = BitVec.ofNat 32 j.val) := fun e => hij ((ofNat32_eq_iff i j).1 e)
    simp [hne]

end Cert.KernelIdeal.Arrays
end
-- ==== Proof.KerArrays3.lean ====
/-
  A Kronecker product with a [16, 16] left factor, and a row repeated sixteen times, read at an index.

  kron (E, W) for E : [16, 16] and W : [a, b] is printed as: E repeated to [16, 1, 16, 1] and on to [16, a, 16, b];
  W repeated to [1, a, 1, b] and on to [16, a, 16, b]; the entrywise product; a reshape to [16 a, 16 b].  A reshape keeps
  row-major positions, so entry (p, q) of the result is entry (p / a, p % a, q / b, q % b) of the product, that is
  E[p / a, q / b] · W[p % a, q % b].  A row [1, n] repeated sixteen times along the lanes reads entry q % n at lane q.
-/
import proofs.«101277_g2000404146032023_pallasbulk_324_6_alg».proof.Proof.Gen.KernelIdeal.Frame
import proofs.«101277_g2000404146032023_pallasbulk_324_6_alg».proof.Proof.Spec
import Idealize.ShloMosaic.Lib.IdealHost
import Idealize.ShloMosaic.Lib.Pipeline.Value

noncomputable section

open scoped BigOperators

namespace Cert.KernelIdeal.Arrays

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- kron (E, W) for W : [8, 64], at entry (p, q). -/
theorem kron1_apply (e : S16x16.Idx → EReal) (w : S8x64.Idx → EReal)
    (hA : S16x1x16x1.BroadcastsInDim S16x8x16x64 (![0, 1, 2, 3] : Fin 4 → Fin S16x8x16x64.rank))
    (hB : S16x16.BroadcastsInDim S16x1x16x1 (![0, 2] : Fin 2 → Fin S16x1x16x1.rank))
    (hC : S1x8x1x64.BroadcastsInDim S16x8x16x64 (![0, 1, 2, 3] : Fin 4 → Fin S16x8x16x64.rank))
    (hD : S8x64.BroadcastsInDim S1x8x1x64 (![1, 3] : Fin 2 → Fin S1x8x1x64.rank))
    (hE : S16x8x16x64.ShapeCasts S128x1024) (p : Fin 128) (q : Fin 1024) :
    shapeCast S128x1024
        (mulf (broadcastInDim S16x8x16x64 ![0, 1, 2, 3] hA (broadcastInDim S16x1x16x1 ![0, 2] hB e) : FVec Ideal S16x8x16x64 .f32)
          (broadcastInDim S16x8x16x64 ![0, 1, 2, 3] hC (broadcastInDim S1x8x1x64 ![1, 3] hD w))) hE (ix2 p q)
      = e (ix2 (⟨p.val / 8, by omega⟩ : Fin 16) (⟨q.val / 64, by omega⟩ : Fin 16))
        * w (ix2 (⟨p.val % 8, Nat.mod_lt _ (by norm_num)⟩ : Fin 8) (⟨q.val % 64, Nat.mod_lt _ (by norm_num)⟩ : Fin 64)) := by
  have hp := p.isLt
  have hq := q.isLt
  refine (shapeCast_apply _ hE (ix2 p q)
    (ix4 (⟨p.val / 8, by omega⟩ : Fin 16) (⟨p.val % 8, Nat.mod_lt _ (by norm_num)⟩ : Fin 8)
      (⟨q.val / 64, by omega⟩ : Fin 16) (⟨q.val % 64, Nat.mod_lt _ (by norm_num)⟩ : Fin 64)) ?_).trans ?_
  · rw [Shape.rowMajor_val_four, Shape.rowMajor_val_two]
    show ((p.val / 8 * 8 + p.val % 8) * 16 + q.val / 64) * 64 + q.val % 64 = p.val * 1024 + q.val
    omega
  refine (mulf_apply _ _ _).trans (congrArg₂ (· * ·) ?_ ?_)
  · refine (broadcastInDim_apply _ hA _ _
      (ix4 (⟨p.val / 8, by omega⟩ : Fin 16) (0 : Fin 1) (⟨q.val / 64, by omega⟩ : Fin 16) (0 : Fin 1)) (fun a => match a with | ⟨0, _⟩ => rfl | ⟨1, _⟩ => rfl | ⟨2, _⟩ => rfl | ⟨3, _⟩ => rfl)).trans ?_
    exact broadcastInDim_apply _ hB e _ (ix2 (⟨p.val / 8, by omega⟩ : Fin 16) (⟨q.val / 64, by omega⟩ : Fin 16)) (fun a => match a with | ⟨0, _⟩ => rfl | ⟨1, _⟩ => rfl)
  · refine (broadcastInDim_apply _ hC _ _
      (ix4 (0 : Fin 1) (⟨p.val % 8, Nat.mod_lt _ (by norm_num)⟩ : Fin 8) (0 : Fin 1) (⟨q.val % 64, Nat.mod_lt _ (by norm_num)⟩ : Fin 64)) (fun a => match a with | ⟨0, _⟩ => rfl | ⟨1, _⟩ => rfl | ⟨2, _⟩ => rfl | ⟨3, _⟩ => rfl)).trans ?_
    exact broadcastInDim_apply _ hD w _
      (ix2 (⟨p.val % 8, Nat.mod_lt _ (by norm_num)⟩ : Fin 8) (⟨q.val % 64, Nat.mod_lt _ (by norm_num)⟩ : Fin 64)) (fun a => match a with | ⟨0, _⟩ => rfl | ⟨1, _⟩ => rfl)

/-- kron (E, W) for W : [64, 4], at entry (p, q). -/
theorem kron2_apply (e : S16x16.Idx → EReal) (w : S64x4.Idx → EReal)
    (hA : S16x1x16x1.BroadcastsInDim S16x64x16x4 (![0, 1, 2, 3] : Fin 4 → Fin S16x64x16x4.rank))
    (hB : S16x16.BroadcastsInDim S16x1x16x1 (![0, 2] : Fin 2 → Fin S16x1x16x1.rank))
    (hC : S1x64x1x4.BroadcastsInDim S16x64x16x4 (![0, 1, 2, 3] : Fin 4 → Fin S16x64x16x4.rank))
    (hD : S64x4.BroadcastsInDim S1x64x1x4 (![1, 3] : Fin 2 → Fin S1x64x1x4.rank))
    (hE : S16x64x16x4.ShapeCasts S1024x64) (p : Fin 1024) (q : Fin 64) :
    shapeCast S1024x64
        (mulf (broadcastInDim S16x64x16x4 ![0, 1, 2, 3] hA (broadcastInDim S16x1x16x1 ![0, 2] hB e) : FVec Ideal S16x64x16x4 .f32)
          (broadcastInDim S16x64x16x4 ![0, 1, 2, 3] hC (broadcastInDim S1x64x1x4 ![1, 3] hD w))) hE (ix2 p q)
      = e (ix2 (⟨p.val / 64, by omega⟩ : Fin 16) (⟨q.val / 4, by omega⟩ : Fin 16))
        * w (ix2 (⟨p.val % 64, Nat.mod_lt _ (by norm_num)⟩ : Fin 64) (⟨q.val % 4, Nat.mod_lt _ (by norm_num)⟩ : Fin 4)) := by
  have hp := p.isLt
  have hq := q.isLt
  refine (shapeCast_apply _ hE (ix2 p q)
    (ix4 (⟨p.val / 64, by omega⟩ : Fin 16) (⟨p.val % 64, Nat.mod_lt _ (by norm_num)⟩ : Fin 64)
      (⟨q.val / 4, by omega⟩ : Fin 16) (⟨q.val % 4, Nat.mod_lt _ (by norm_num)⟩ : Fin 4)) ?_).trans ?_
  · rw [Shape.rowMajor_val_four, Shape.rowMajor_val_two]
    show ((p.val / 64 * 64 + p.val % 64) * 16 + q.val / 4) * 4 + q.val % 4 = p.val * 64 + q.val
    omega
  refine (mulf_apply _ _ _).trans (congrArg₂ (· * ·) ?_ ?_)
  · refine (broadcastInDim_apply _ hA _ _
      (ix4 (⟨p.val / 64, by omega⟩ : Fin 16) (0 : Fin 1) (⟨q.val / 4, by omega⟩ : Fin 16) (0 : Fin 1)) (fun a => match a with | ⟨0, _⟩ => rfl | ⟨1, _⟩ => rfl | ⟨2, _⟩ => rfl | ⟨3, _⟩ => rfl)).trans ?_
    exact broadcastInDim_apply _ hB e _ (ix2 (⟨p.val / 64, by omega⟩ : Fin 16) (⟨q.val / 4, by omega⟩ : Fin 16)) (fun a => match a with | ⟨0, _⟩ => rfl | ⟨1, _⟩ => rfl)
  · refine (broadcastInDim_apply _ hC _ _
      (ix4 (0 : Fin 1) (⟨p.val % 64, Nat.mod_lt _ (by norm_num)⟩ : Fin 64) (0 : Fin 1) (⟨q.val % 4, Nat.mod_lt _ (by norm_num)⟩ : Fin 4)) (fun a => match a with | ⟨0, _⟩ => rfl | ⟨1, _⟩ => rfl | ⟨2, _⟩ => rfl | ⟨3, _⟩ => rfl)).trans ?_
    exact broadcastInDim_apply _ hD w _
      (ix2 (⟨p.val % 64, Nat.mod_lt _ (by norm_num)⟩ : Fin 64) (⟨q.val % 4, Nat.mod_lt _ (by norm_num)⟩ : Fin 4)) (fun a => match a with | ⟨0, _⟩ => rfl | ⟨1, _⟩ => rfl)

/-- [1, 64] → [1, 1, 1, 64] → sixteen copies along the third axis → [1, 1024]: lane q of the result is entry q % 64. -/
theorem tile_b1 (b : S1x64.Idx → EReal) (h1 : S1x64.ShapeCasts S1x1x1x64)
    (h2 : S1x1x1x64.BroadcastsInDim S1x1x16x64 (![0, 1, 2, 3] : Fin 4 → Fin S1x1x16x64.rank)) (h3 : S1x1x16x64.ShapeCasts S1x1024)
    (p : Fin 1) (q : Fin 1024) :
    shapeCast S1x1024 (broadcastInDim S1x1x16x64 ![0, 1, 2, 3] h2 (shapeCast S1x1x1x64 b h1)) h3 (ix2 p q)
      = b (ix2 p (⟨q.val % 64, Nat.mod_lt _ (by norm_num)⟩ : Fin 64)) := by
  have hp : p.val = 0 := by omega
  have hq := q.isLt
  refine (shapeCast_apply _ h3 (ix2 p q)
    (ix4 (0 : Fin 1) (0 : Fin 1) (⟨q.val / 64, by omega⟩ : Fin 16) (⟨q.val % 64, Nat.mod_lt _ (by norm_num)⟩ : Fin 64)) ?_).trans ?_
  · rw [Shape.rowMajor_val_four, Shape.rowMajor_val_two]
    show ((0 * 1 + 0) * 16 + q.val / 64) * 64 + q.val % 64 = p.val * 1024 + q.val
    omega
  refine (broadcastInDim_apply _ h2 _ _
    (ix4 (0 : Fin 1) (0 : Fin 1) (0 : Fin 1) (⟨q.val % 64, Nat.mod_lt _ (by norm_num)⟩ : Fin 64)) (fun a => match a with | ⟨0, _⟩ => rfl | ⟨1, _⟩ => rfl | ⟨2, _⟩ => rfl | ⟨3, _⟩ => rfl)).trans ?_
  refine shapeCast_apply b h1 _ _ ?_
  rw [Shape.rowMajor_val_four, Shape.rowMajor_val_two]
  show p.val * 64 + q.val % 64 = ((0 * 1 + 0) * 1 + 0) * 64 + q.val % 64
  omega

end Cert.KernelIdeal.Arrays
end
-- ==== Proof.KerArrays4.lean ====
/-
  The two block-diagonal weights and the repeated first bias as the region finds them, index by index.

  Each is a chain of host operations on an argument array: the weight is written into the corner of a zero matrix, the
  identity matrix is built from two iotas, and the Kronecker product of the two is reshaped to a matrix.  On a diagonal
  block the identity contributes the factor 1 and the entry is the padded weight's; off the diagonal blocks it contributes
  an exact 0 and the entry is 0, whatever the weight is.
-/
import proofs.«101277_g2000404146032023_pallasbulk_324_6_alg».proof.Proof.Gen.KernelIdeal.Frame
import proofs.«101277_g2000404146032023_pallasbulk_324_6_alg».proof.Proof.Spec
import Idealize.ShloMosaic.Lib.IdealHost
import Idealize.ShloMosaic.Lib.Pipeline.Value
import proofs.«101277_g2000404146032023_pallasbulk_324_6_alg».proof.Proof.KerArrays2
import proofs.«101277_g2000404146032023_pallasbulk_324_6_alg».proof.Proof.KerArrays3

noncomputable section

open scoped BigOperators

namespace Cert.KernelIdeal.Arrays

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- The 16 × 16 identity matrix as the program builds it. -/
def eye : FVec Ideal S16x16 .f32 :=
  uitofp .f32 (cmpi .eq (addi (iotaInDim S16x16 32 0) (broadcastInDim S16x16 ![] Facts₀.bcast_S_S16x16 (constantI S_ 32 0#32)))
    (iotaInDim S16x16 32 1))

/-- A zero matrix with an update written into its top-left corner, as the program builds it. -/
def w1p (w : S8x50.Idx → EReal) : S8x64.Idx → EReal :=
  Host.scatter scatter_S8x64_S1_S8x50_01_n_1_0 (fun _ b => b)
    (broadcastInDim S8x64 ![] Facts₀.bcast_S_S8x64 (constant (F := Ideal) S_ .f32 0x00000000#32))
    (broadcastInDim S1 ![] Facts₀.bcast_S_S1 (constantI S_ 32 0#32)) w
def w2p (w : S50x4.Idx → EReal) : S64x4.Idx → EReal :=
  Host.scatter scatter_S64x4_S1_S50x4_01_n_0_0 (fun _ b => b)
    (broadcastInDim S64x4 ![] Facts₀.bcast_S_S64x4 (constant (F := Ideal) S_ .f32 0x00000000#32))
    (broadcastInDim S1 ![] Facts₀.bcast_S_S1 (constantI S_ 32 0#32)) w
def b1p (b : S1x50.Idx → EReal) : S1x64.Idx → EReal :=
  Host.scatter scatter_S1x64_S1_S1x50_01_n_1_0 (fun _ b => b)
    (broadcastInDim S1x64 ![] Facts₀.bcast_S_S1x64 (constant (F := Ideal) S_ .f32 0x00000000#32))
    (broadcastInDim S1 ![] Facts₀.bcast_S_S1 (constantI S_ 32 0#32)) b

/-- kron (E, W) for W : [8, 64], as the program builds it. -/
def kron1 (e : S16x16.Idx → EReal) (w : S8x64.Idx → EReal) : S128x1024.Idx → EReal :=
  shapeCast S128x1024
    (mulf (broadcastInDim S16x8x16x64 ![0, 1, 2, 3] Facts₀.bcast_S16x1x16x1_S16x8x16x64_0_1_2_3
            (broadcastInDim S16x1x16x1 ![0, 2] Facts₀.bcast_S16x16_S16x1x16x1_0_2 e) : FVec Ideal S16x8x16x64 .f32)
      (broadcastInDim S16x8x16x64 ![0, 1, 2, 3] Facts₀.bcast_S1x8x1x64_S16x8x16x64_0_1_2_3
        (broadcastInDim S1x8x1x64 ![1, 3] Facts₀.bcast_S8x64_S1x8x1x64_1_3 w)))
    Facts₀.shapeCasts_S16x8x16x64_S128x1024
/-- kron (E, W) for W : [64, 4], as the program builds it. -/
def kron2 (e : S16x16.Idx → EReal) (w : S64x4.Idx → EReal) : S1024x64.Idx → EReal :=
  shapeCast S1024x64
    (mulf (broadcastInDim S16x64x16x4 ![0, 1, 2, 3] Facts₀.bcast_S16x1x16x1_S16x64x16x4_0_1_2_3
            (broadcastInDim S16x1x16x1 ![0, 2] Facts₀.bcast_S16x16_S16x1x16x1_0_2 e) : FVec Ideal S16x64x16x4 .f32)
      (broadcastInDim S16x64x16x4 ![0, 1, 2, 3] Facts₀.bcast_S1x64x1x4_S16x64x16x4_0_1_2_3
        (broadcastInDim S1x64x1x4 ![1, 3] Facts₀.bcast_S64x4_S1x64x1x4_1_3 w)))
    Facts₀.shapeCasts_S16x64x16x4_S1024x64
/-- A [1, 64] row repeated sixteen times along the lanes, as the program builds it. -/
def tile1 (b : S1x64.Idx → EReal) : S1x1024.Idx → EReal :=
  shapeCast S1x1024 (broadcastInDim S1x1x16x64 ![0, 1, 2, 3] Facts₀.bcast_S1x1x1x64_S1x1x16x64_0_1_2_3
    (shapeCast S1x1x1x64 b Facts₀.shapeCasts_S1x64_S1x1x1x64)) Facts₀.shapeCasts_S1x1x16x64_S1x1024

/-! ## The chains are the named arrays -/

/-- kron (I₁₆, w1 padded to 64 columns), index by index. -/
theorem kron_w1 (w : S8x50.Idx → EReal) : kron1 eye (w1p w) = Cert.Mlp.w1big w := by
  funext i
  obtain ⟨p, q, rfl⟩ : ∃ (p : Fin 128) (q : Fin 1024), i = ix2 p q := ⟨i 0, i 1, eq_ix2 i⟩
  unfold kron1 eye w1p
  rw [kron1_apply, eye_apply, pad_w1]
  unfold Cert.Mlp.w1big
  show (if (⟨p.val / 8, _⟩ : Fin 16) = ⟨q.val / 64, _⟩ then (1 : EReal) else 0) * _ = if p.val / 8 = q.val / 64 then _ else 0
  by_cases h : p.val / 8 = q.val / 64
  · rw [if_pos (Fin.ext h), if_pos h, one_mul]
  · rw [if_neg (fun e => h (Fin.ext_iff.1 e)), if_neg h, zero_mul]

/-- kron (I₁₆, w2 padded to 64 rows), index by index. -/
theorem kron_w2 (w : S50x4.Idx → EReal) : kron2 eye (w2p w) = Cert.Mlp.w2big w := by
  funext i
  obtain ⟨p, q, rfl⟩ : ∃ (p : Fin 1024) (q : Fin 64), i = ix2 p q := ⟨i 0, i 1, eq_ix2 i⟩
  unfold kron2 eye w2p
  rw [kron2_apply, eye_apply, pad_w2]
  unfold Cert.Mlp.w2big
  show (if (⟨p.val / 64, _⟩ : Fin 16) = ⟨q.val / 4, _⟩ then (1 : EReal) else 0) * _ = if p.val / 64 = q.val / 4 then _ else 0
  by_cases h : p.val / 64 = q.val / 4
  · rw [if_pos (Fin.ext h), if_pos h, one_mul]
  · rw [if_neg (fun e => h (Fin.ext_iff.1 e)), if_neg h, zero_mul]

/-- The padded first bias repeated sixteen times, index by index. -/
theorem tile_b1p (b : S1x50.Idx → EReal) : tile1 (b1p b) = Cert.Mlp.b1big b := by
  funext i
  obtain ⟨p, q, rfl⟩ : ∃ (p : Fin 1) (q : Fin 1024), i = ix2 p q := ⟨i 0, i 1, eq_ix2 i⟩
  unfold tile1 b1p
  rw [tile_b1, pad_b1]
  rfl

/-! ## What the region finds -/

set_option maxHeartbeats 1000000 in
/-- The chain of host operations behind the region's second operand: the Kronecker product of the identity matrix and the
    padded first weight. -/
theorem V_w1_term : (Gen.V m c main_v12 : S128x1024.Idx → EReal)
    = kron1 eye (w1p (m ((c : Thread nD τ).loc main_arg1))) := by
  dsimp only [Gen.V, Gen.V0]
  simp only [Gen.hostOps0, Gen.hostOps0_1, Gen.hostOps0_2, Gen.hostOps0_3, List.flatten_cons, List.flatten_nil, List.append_nil, List.cons_append, List.nil_append]
  after_results
  generalize hW : Host.scatter _ _ _ _ _ = W
  have hW' : w1p (m ((c : Thread nD τ).loc main_arg1)) = W := hW
  rw [hW']
  rfl

set_option maxHeartbeats 1000000 in
/-- The chain of host operations behind the region's fourth operand: the Kronecker product of the identity matrix and the
    padded second weight. -/
theorem V_w2_term : (Gen.V m c main_v13 : S1024x64.Idx → EReal)
    = kron2 eye (w2p (m ((c : Thread nD τ).loc main_arg3))) := by
  dsimp only [Gen.V, Gen.V0]
  simp only [Gen.hostOps0, Gen.hostOps0_1, Gen.hostOps0_2, Gen.hostOps0_3, List.flatten_cons, List.flatten_nil, List.append_nil, List.cons_append, List.nil_append]
  after_results
  generalize hW : Host.scatter _ _ _ _ _ = W
  have hW' : w2p (m ((c : Thread nD τ).loc main_arg3)) = W := hW
  rw [hW']
  rfl

/-- The chain of host operations behind the region's third operand: the padded first bias, repeated. -/
theorem V_b1_term : (Gen.V m c main_v19 : S1x1024.Idx → EReal)
    = tile1 (b1p (m ((c : Thread nD τ).loc main_arg2))) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The region's second operand is the block-diagonal first layer. -/
theorem V_w1 : (Gen.V m c main_v12 : S128x1024.Idx → EReal) = Cert.Mlp.w1big (m ((c : Thread nD τ).loc main_arg1)) :=
  (V_w1_term m c).trans (kron_w1 _)

/-- The region's fourth operand is the block-diagonal second layer. -/
theorem V_w2 : (Gen.V m c main_v13 : S1024x64.Idx → EReal) = Cert.Mlp.w2big (m ((c : Thread nD τ).loc main_arg3)) :=
  (V_w2_term m c).trans (kron_w2 _)

/-- The region's third operand is the padded first bias repeated along the lanes. -/
theorem V_b1 : (Gen.V m c main_v19 : S1x1024.Idx → EReal) = Cert.Mlp.b1big (m ((c : Thread nD τ).loc main_arg2)) :=
  (V_b1_term m c).trans (tile_b1p _)

end Cert.KernelIdeal.Arrays
end
-- ==== Proof.RefArrays.lean ====
/-
  The arrays the reference's region is handed, as functions of the argument arrays.

  Before its region the reference pads each weight and bias with zeros (a zero array with the argument written into
  its top-left corner) and copies `x` into a zero array of the same extents.  Each padded array is read here index by
  index: inside the corner it is the argument's entry, outside it is the zero fill.
-/
import proofs.«101277_g2000404146032023_pallasbulk_324_6_alg».proof.Proof.Gen.ReferenceIdeal.Frame
import proofs.«101277_g2000404146032023_pallasbulk_324_6_alg».proof.Proof.Spec
import proofs.«101277_g2000404146032023_pallasbulk_324_6_alg».proof.Proof.LibScatterSet
import Idealize.ShloMosaic.PureOps.Ideal.Laws

noncomputable section

namespace Cert.ReferenceIdeal.Arrays

open Idealize.ShloMosaic Idealize.ShloMosaic.TcCoe Idealize.ShloMosaic.Tactic
open Idealize.ShloMosaic.ValueIdx
open Cert.ReferenceIdeal Cert.ReferenceIdeal.Gen

variable (m : (ℓ : Loc nD τ sig) → Buf (Elt Ideal) ℓ) (c : Dev nD)

/-- A one-word start index broadcast from the constant zero is zero. -/
theorem idx1_zero (k : S1.Idx) :
    ((broadcastInDim S1 ![] bcast_S_S1 (constantI S_ 32 0#32) : IVec S1 32) k).toInt = 0 := rfl

/-- The zero fill of any shape holds zero everywhere. -/
theorem fill_zero {t : Shape} (h : S_.BroadcastsInDim t (![] : Fin 0 → Fin t.rank)) (i : t.Idx) :
    (broadcastInDim t ![] h (constant (F := Ideal) S_ .f32 0x00000000#32) : t.Idx → EReal) i = 0 :=
  Ideal.ofBits_zero_f32

/-- The empty start-index vector has no entries. -/
theorem idx0_zero (k : S0.Idx) : ((emptyVec S0 hz_S0 : IVec S0 32) k).toInt = 0 := (k 0).elim0

/-- A two-word start index concatenated from two zero words is zero. -/
theorem idx2_zero (k : S2.Idx) :
    ((concatenate S2 0 [⟨S1, (broadcastInDim S1 ![] bcast_S_S1 (constantI S_ 32 0#32) : IVec S1 32)⟩,
        ⟨S1, (broadcastInDim S1 ![] bcast_S_S1 (constantI S_ 32 0#32) : IVec S1 32)⟩] concatenates_S1_S1_S2_d0 : IVec S2 32) k).toInt = 0 := by
  obtain ⟨a, rfl⟩ : ∃ a, k = ix1 a := ⟨k 0, eq_ix1 k⟩
  fin_cases a <;> rfl

/-- `w1` padded with zero columns to width 128. -/
theorem V_w1 : (Gen.V m c main_v2 : S8x128.Idx → EReal) = Cert.Mlp.w1pad 128 (m ((c : Thread nD τ).loc main_arg1)) := by
  have e : (Gen.V m c main_v2 : S8x128.Idx → EReal) =
      Host.scatter scatter_S8x128_S1_S8x50_01_n_1_0 (fun _ b => b)
        (broadcastInDim S8x128 ![] bcast_S_S8x128 (constant (F := Ideal) S_ .f32 0x00000000#32))
        (broadcastInDim S1 ![] bcast_S_S1 (constantI S_ 32 0#32) : IVec S1 32)
        (m ((c : Thread nD τ).loc main_arg1)) := by
    show StableHlo.after hostOps0 (fun b => m (c, b)) (Proc.devRef .tc main_v2) = _
    after_results
  rw [e]
  funext i
  rw [Host.scatter_set_origin₂ _ rfl rfl _ _ idx1_zero _ (by norm_num) (by norm_num) i]
  have hi0 : (i 0).val < 8 := (i 0).isLt
  unfold Cert.Mlp.w1pad
  by_cases h : (i 1).val < 50
  · rw [dif_pos ⟨hi0, h⟩, dif_pos h]; rfl
  · rw [dif_neg (fun hh => h hh.2), dif_neg h]; exact fill_zero _ i

/-- `b1` padded with zero columns to width 128. -/
theorem V_b1 : (Gen.V m c main_v5 : S1x128.Idx → EReal) = Cert.Mlp.b1pad 128 (m ((c : Thread nD τ).loc main_arg2)) := by
  have e : (Gen.V m c main_v5 : S1x128.Idx → EReal) =
      Host.scatter scatter_S1x128_S1_S1x50_01_n_1_0 (fun _ b => b)
        (broadcastInDim S1x128 ![] bcast_S_S1x128 (constant (F := Ideal) S_ .f32 0x00000000#32))
        (broadcastInDim S1 ![] bcast_S_S1 (constantI S_ 32 0#32) : IVec S1 32)
        (m ((c : Thread nD τ).loc main_arg2)) := by
    show StableHlo.after hostOps0 (fun b => m (c, b)) (Proc.devRef .tc main_v5) = _
    after_results
  rw [e]
  funext i
  rw [Host.scatter_set_origin₂ _ rfl rfl _ _ idx1_zero _ (by norm_num) (by norm_num) i]
  have hi0 : (i 0).val < 1 := (i 0).isLt
  unfold Cert.Mlp.b1pad
  by_cases h : (i 1).val < 50
  · rw [dif_pos ⟨hi0, h⟩, dif_pos h]; rfl
  · rw [dif_neg (fun hh => h hh.2), dif_neg h]; exact fill_zero _ i

/-- `w2` in the top-left corner of a zero 128 × 128 matrix. -/
theorem V_w2 : (Gen.V m c main_v10 : S128x128.Idx → EReal) = Cert.Mlp.w2pad128 (m ((c : Thread nD τ).loc main_arg3)) := by
  have e : (Gen.V m c main_v10 : S128x128.Idx → EReal) =
      Host.scatter scatter_S128x128_S2_S50x4_01_n_01_0 (fun _ b => b)
        (broadcastInDim S128x128 ![] bcast_S_S128x128 (constant (F := Ideal) S_ .f32 0x00000000#32))
        (concatenate S2 0 [⟨S1, (broadcastInDim S1 ![] bcast_S_S1 (constantI S_ 32 0#32) : IVec S1 32)⟩,
          ⟨S1, (broadcastInDim S1 ![] bcast_S_S1 (constantI S_ 32 0#32) : IVec S1 32)⟩] concatenates_S1_S1_S2_d0 : IVec S2 32)
        (m ((c : Thread nD τ).loc main_arg3)) := by
    show StableHlo.after hostOps0 (fun b => m (c, b)) (Proc.devRef .tc main_v10) = _
    after_results
  rw [e]
  funext i
  rw [Host.scatter_set_origin₂ _ rfl rfl _ _ idx2_zero _ (by norm_num) (by norm_num) i]
  unfold Cert.Mlp.w2pad128
  by_cases h : (i 0).val < 50 ∧ (i 1).val < 4
  · rw [dif_pos h, dif_pos h]
  · rw [dif_neg h, dif_neg h]; exact fill_zero _ i

/-- `b2` padded with zero columns to width 128. -/
theorem V_b2 : (Gen.V m c main_v13 : S1x128.Idx → EReal) = Cert.Mlp.b2pad128 (m ((c : Thread nD τ).loc main_arg4)) := by
  have e : (Gen.V m c main_v13 : S1x128.Idx → EReal) =
      Host.scatter scatter_S1x128_S1_S1x4_01_n_1_0 (fun _ b => b)
        (broadcastInDim S1x128 ![] bcast_S_S1x128 (constant (F := Ideal) S_ .f32 0x00000000#32))
        (broadcastInDim S1 ![] bcast_S_S1 (constantI S_ 32 0#32) : IVec S1 32)
        (m ((c : Thread nD τ).loc main_arg4)) := by
    show StableHlo.after hostOps0 (fun b => m (c, b)) (Proc.devRef .tc main_v13) = _
    after_results
  rw [e]
  funext i
  rw [Host.scatter_set_origin₂ _ rfl rfl _ _ idx1_zero _ (by norm_num) (by norm_num) i]
  have hi0 : (i 0).val < 1 := (i 0).isLt
  unfold Cert.Mlp.b2pad128
  by_cases h : (i 1).val < 4
  · rw [dif_pos ⟨hi0, h⟩, dif_pos h]; rfl
  · rw [dif_neg (fun hh => h hh.2), dif_neg h]; exact fill_zero _ i

/-- `x` copied whole over a zero array of its own extents: the copy of `x`. -/
theorem V_x : (Gen.V m c main_v15 : S1048576x8.Idx → EReal) = m ((c : Thread nD τ).loc main_arg0) := by
  have e : (Gen.V m c main_v15 : S1048576x8.Idx → EReal) =
      Host.scatter scatter_S1048576x8_S0_S1048576x8_01_n_n_0 (fun _ b => b)
        (broadcastInDim S1048576x8 ![] bcast_S_S1048576x8 (constant (F := Ideal) S_ .f32 0x00000000#32))
        (emptyVec S0 hz_S0 : IVec S0 32)
        (m ((c : Thread nD τ).loc main_arg0)) := by
    show StableHlo.after hostOps0 (fun b => m (c, b)) (Proc.devRef .tc main_v15) = _
    after_results
  rw [e]
  funext i
  rw [Host.scatter_set_origin₂ _ rfl rfl _ _ idx0_zero _ (le_refl _) (le_refl _) i]
  rw [dif_pos ⟨(i 0).isLt, (i 1).isLt⟩]
  exact congrArg _ (eq_ix2 i).symm

end Cert.ReferenceIdeal.Arrays

end
-- ==== Proof.KerBody.lean ====
/-
  The packed program's body on one block, read at an index.

  The body loads a block of 1024 packed rows (128 lanes), the block-diagonal first layer [128, 1024], its bias row
  [1, 1024], the block-diagonal second layer [1024, 64] and its bias row [1, 64], and stores
      (max (X · W₁ + b₁) 0) · W₂ + b₂ .
  Each matrix product into a zero accumulator is the plain sum over the contracted lane, the bias rows are laid along
  every row, and the clamp is the maximum with the zero word; so entry (p, q) of what is stored is
      Σ_c max (Σ_k X[p,k] · W₁[k,c] + b₁[0,c]) 0 · W₂[c,q] + b₂[0,q] .
-/
import proofs.«101277_g2000404146032023_pallasbulk_324_6_alg».proof.Proof.Gen.KernelIdeal.Skeleton
import Idealize.ShloMosaic.Lib.StackMember
import Idealize.ShloMosaic.Lib.ValueLayout

noncomputable section

open scoped BigOperators

namespace Cert.KernelIdeal.Body

open Idealize.ShloMosaic Idealize.ShloMosaic.ValueIdx Cert.KernelIdeal Cert.KernelIdeal.Gen

/-- The two-layer function of one block of packed rows, at row `p` and output lane `q`. -/
def blockNet (x0 : FVec Ideal S1024x128 .f32) (x1 : FVec Ideal S128x1024 .f32) (x2 : FVec Ideal S1x1024 .f32)
    (x3 : FVec Ideal S1024x64 .f32) (x4 : FVec Ideal S1x64 .f32) (p : Fin 1024) (q : Fin 64) : EReal :=
  (∑ c : Fin 1024, max ((∑ k : Fin 128, x0 (ix2 p k) * x1 (ix2 k c)) + x2 (ix2 (0 : Fin 1) c)) 0 * x3 (ix2 c q))
    + x4 (ix2 (0 : Fin 1) q)

/-- The first product, into a zero accumulator, is the sum over the 128 packed lanes. -/
theorem layer1_apply (A : FVec Ideal S1024x128 .f32) (B : FVec Ideal S128x1024 .f32) (p : Fin 1024) (c : Fin 1024) :
    matmul dot_S1024x128_S128x1024_S1024x1024_1_0_0_1_n_n none A B (constant S1024x1024 .f32 0x00000000#32) (ix2 p c)
      = ∑ k : Fin 128, A (ix2 p k) * B (ix2 k c) := by
  show matmul (DotDims.plain 1024 128 1024) none A B (constant (⟨2, ![1024, 1024]⟩ : Shape) .f32 0x00000000#32) (ix2 p c) = _
  rw [matmul_zero_eq_dotGeneral]
  exact StackMember.dotGeneral_plain_apply none A B p c

/-- The second product, into a zero accumulator, is the sum over the 1024 packed hidden lanes. -/
theorem layer2_apply (A : FVec Ideal S1024x1024 .f32) (B : FVec Ideal S1024x64 .f32) (p : Fin 1024) (q : Fin 64) :
    matmul dot_S1024x1024_S1024x64_S1024x64_1_0_0_1_n_n none A B (constant S1024x64 .f32 0x00000000#32) (ix2 p q)
      = ∑ c : Fin 1024, A (ix2 p c) * B (ix2 c q) := by
  show matmul (DotDims.plain 1024 1024 64) none A B (constant (⟨2, ![1024, 64]⟩ : Shape) .f32 0x00000000#32) (ix2 p q) = _
  rw [matmul_zero_eq_dotGeneral]
  exact StackMember.dotGeneral_plain_apply none A B p q

/-- What the body stores, at row `p` and lane `q` of the block. -/
theorem pay_apply (x0 : Vec Ideal S1024x128 .f32) (x1 : Vec Ideal S128x1024 .f32) (x2 : Vec Ideal S1x1024 .f32)
    (x3 : Vec Ideal S1024x64 .f32) (x4 : Vec Ideal S1x64 .f32) (p : Fin 1024) (q : Fin 64) :
    k0_pay1 (F := Ideal) x0 x1 x2 x3 x4 (ix2 p q) = blockNet x0 x1 x2 x3 x4 p q := by
  unfold k0_pay1 blockNet
  simp only [shapeCast_self, addf_apply, layer2_apply, maximumf_apply, layer1_apply, broadcastTo_1b_ab_apply, broadcast_apply]
  have hz : (FloatOps.ofBits (F := Ideal) FTy.f32 0x00000000#32 : EReal) = 0 := Ideal.ofBits_zero_f32
  rw [hz]

end Cert.KernelIdeal.Body

end
-- ==== Proof.KerBlocks.lean ====
/-
  The packed program's output array after its region: the two-layer function of the five arrays the region is
  handed, index by index.

  The grid has 64 points; point `t` stages rows 1024 t … 1024 t + 1023 of the packed input and of the output, and
  the four weight and bias arrays whole.  So what point `t` writes back is the body's function of those rows, and
  row `r` of the output is written by point `r / 1024`: the blocks tile the output.
-/
import proofs.«101277_g2000404146032023_pallasbulk_324_6_alg».proof.Proof.Gen.KernelIdeal.Frame
import proofs.«101277_g2000404146032023_pallasbulk_324_6_alg».proof.Proof.KerBody
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat Cfg Window)

variable (m : (ℓ : Loc nD τ sig) → Buf (Elt Ideal) ℓ) (ρ : Dev nD → PrngReg)

/-- The two-layer function over whole arrays: packed row `i 0`, output lane `i 1`. -/
def packedNet (X : FVec Ideal S65536x128 .f32) (W1 : FVec Ideal S128x1024 .f32) (B1 : FVec Ideal S1x1024 .f32)
    (W2 : FVec Ideal S1024x64 .f32) (B2 : FVec Ideal S1x64 .f32) : S65536x64.Idx → EReal :=
  fun i => (∑ c : Fin 1024, max ((∑ k : Fin 128, X (ix2 (i 0) k) * W1 (ix2 k c)) + B1 (ix2 (0 : Fin 1) c)) 0 * W2 (ix2 c (i 1)))
    + B2 (ix2 (0 : Fin 1) (i 1))

theorem hz : (![0, 0] : Fin 2 → Nat) = fun _ => 0 := funext fun a => by fin_cases a <;> rfl

/-- The printed index maps over the grid: the packed input and the output move one block of rows per point, the
    weights and biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the input block at point `t` is row `1024 t + p` of the packed input. -/
theorem read0 (c : Dev nD) (t : Fin cfg0.N) (p : Fin 1024) (k : Fin 128) (r : Fin 65536) (hr : r.val = t.val * 1024 + p.val) :
    iblk m c 0 t (ix2 p k) = V m c main_v23 (ix2 r k) := by
  show V m c main_v23 (((cfg0.win 0).blk t).view.emb (ix2 p k)) = _
  refine congrArg _ (funext fun a => Fin.ext ?_)
  obtain ⟨e00, e01, -⟩ := idx_facts t
  match a with
  | ⟨0, _⟩ => show win0_0.index t (0 : Fin 2) * 1024 + 1 * p.val = r.val; omega
  | ⟨1, _⟩ => show win0_0.index t (1 : Fin 2) * 128 + 1 * k.val = k.val; omega

/-- The first layer is staged whole. -/
theorem read1 (c : Dev nD) (t : Fin cfg0.N) (k : Fin 128) (n : Fin 1024) :
    iblk m c 1 t (ix2 k n) = V m c main_v12 (ix2 k n) := by
  show V m c main_v12 (((cfg0.win 1).blk t).view.emb (ix2 k n)) = _
  refine congrArg _ (funext fun a => Fin.ext ?_)
  obtain ⟨-, -, e10, e11, -⟩ := idx_facts t
  match a with
  | ⟨0, _⟩ => show win0_1.index t (0 : Fin 2) * 128 + 1 * k.val = k.val; omega
  | ⟨1, _⟩ => show win0_1.index t (1 : Fin 2) * 1024 + 1 * n.val = n.val; omega

/-- The first bias row is staged whole. -/
theorem read2 (c : Dev nD) (t : Fin cfg0.N) (z : Fin 1) (n : Fin 1024) :
    iblk m c 2 t (ix2 z n) = V m c main_v19 (ix2 z n) := by
  show V m c main_v19 (((cfg0.win 2).blk t).view.emb (ix2 z n)) = _
  refine congrArg _ (funext fun a => Fin.ext ?_)
  obtain ⟨-, -, -, -, e20, e21, -⟩ := idx_facts t
  match a with
  | ⟨0, _⟩ => show win0_2.index t (0 : Fin 2) * 1 + 1 * z.val = z.val; omega
  | ⟨1, _⟩ => show win0_2.index t (1 : Fin 2) * 1024 + 1 * n.val = n.val; omega

/-- The second layer is staged whole. -/
theorem read3 (c : Dev nD) (t : Fin cfg0.N) (n : Fin 1024) (q : Fin 64) :
    iblk m c 3 t (ix2 n q) = V m c main_v13 (ix2 n q) := by
  show V m c main_v13 (((cfg0.win 3).blk t).view.emb (ix2 n q)) = _
  refine congrArg _ (funext fun a => Fin.ext ?_)
  obtain ⟨-, -, -, -, -, -, e30, e31, -⟩ := idx_facts t
  match a with
  | ⟨0, _⟩ => show win0_3.index t (0 : Fin 2) * 1024 + 1 * n.val = n.val; omega
  | ⟨1, _⟩ => show win0_3.index t (1 : Fin 2) * 64 + 1 * q.val = q.val; omega

/-- The second bias row is staged whole. -/
theorem read4 (c : Dev nD) (t : Fin cfg0.N) (z : Fin 1) (q : Fin 64) :
    iblk m c 4 t (ix2 z q) = V m c main_v22 (ix2 z q) := by
  show V m c main_v22 (((cfg0.win 4).blk t).view.emb (ix2 z q)) = _
  refine congrArg _ (funext fun a => Fin.ext ?_)
  obtain ⟨-, -, -, -, -, -, -, -, e40, e41, -⟩ := idx_facts t
  match a with
  | ⟨0, _⟩ => show win0_4.index t (0 : Fin 2) * 1 + 1 * z.val = z.val; omega
  | ⟨1, _⟩ => show win0_4.index t (1 : Fin 2) * 64 + 1 * q.val = q.val; omega

/-- Entry (p, q) of the output block at point `t` sits at row `1024 t + p`, lane `q` of the output array. -/
theorem emb5 (t : Fin cfg0.N) (p : Fin 1024) (q : Fin 64) (r : Fin 65536) (hr : r.val = t.val * 1024 + p.val) :
    ((cfg0.win 5).blk t).view.emb (ix2 p q) = (ix2 r q : S65536x64.Idx) := by
  funext a; apply Fin.ext
  obtain ⟨-, -, -, -, -, -, -, -, -, -, e50, e51⟩ := idx_facts t
  match a with
  | ⟨0, _⟩ => show win0_5.index t (0 : Fin 2) * 1024 + 1 * p.val = r.val; omega
  | ⟨1, _⟩ => show win0_5.index t (1 : Fin 2) * 64 + 1 * q.val = q.val; omega

/-- What point `t` writes back is block `t` of the two-layer function of the arrays the region is handed. -/
theorem flushed_eq (c : Dev nD) (t : Fin cfg0.N) :
    (dats m 0 c).flushed 5 t = ((cfg0.win 5).blk t).view.read (Elt Ideal)
      (packedNet (V m c main_v23) (V m c main_v12) (V m c main_v19) (V m c main_v13) (V m c main_v22)) := by
  show (cfg0.win 5).cut (grid0.coords t) ((dats m 0 c).after 5 t) = _
  rw [after0_5]
  unfold out0_5
  rw [View.canon_unit_zero hz]
  simp only [View.ld_unit_zero (S := S1024x128) hz, View.ld_unit_zero (S := S128x1024) hz, View.ld_unit_zero (S := S1x1024) hz,
    View.ld_unit_zero (S := S1024x64) hz, View.ld_unit_zero (S := S1x64) hz]
  funext j
  obtain ⟨p, q, rfl⟩ : ∃ (p : Fin 1024) (q : Fin 64), j = ix2 p q := ⟨j 0, j 1, eq_ix2 j⟩
  have ht : t.val < 64 := t.isLt
  have hp : p.val < 1024 := p.isLt
  let r : Fin 65536 := ⟨t.val * 1024 + p.val, by omega⟩
  show k0_pay1 (F := Ideal) (iblk m c 0 t) (iblk m c 1 t) (iblk m c 2 t) (iblk m c 3 t) (iblk m c 4 t) (ix2 p q)
    = packedNet (V m c main_v23) (V m c main_v12) (V m c main_v19) (V m c main_v13) (V m c main_v22) (((cfg0.win 5).blk t).view.emb (ix2 p q))
  rw [emb5 t p q r rfl]
  refine (pay_apply (iblk m c 0 t) (iblk m c 1 t) (iblk m c 2 t) (iblk m c 3 t) (iblk m c 4 t) p q).trans ?_
  unfold blockNet packedNet
  simp only [read0 m c t p _ r rfl, read1 m c t, read2 m c t, read3 m c t, read4 m c t]

/-- An index of the output is in point `t`'s block iff each coordinate is in the block's range. -/
theorem mem_blk (t : Fin cfg0.N) (i : S65536x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v24).slice (win0_5.rect t)).set ↔ _
  rw [View.set_slice_whole, Rect.mem_set_unit]
  exact Iff.rfl

/-- Every index of the output is in the block of the point its row falls in. -/
theorem cover (i : S65536x64.Idx) : ∃ t : Fin cfg0.N, (cfg0.win 5).flush t = true ∧ i ∈ ((cfg0.win 5).blk t).view.set := by
  have hi0 : (i 0).val < 65536 := (i 0).isLt
  have hi1 : (i 1).val < 64 := (i 1).isLt
  let t : Fin cfg0.N := ⟨(i 0).val / 1024, by show (i 0).val / 1024 < 64; omega⟩
  have htv : t.val = (i 0).val / 1024 := rfl
  refine ⟨t, flush0_5 t, ?_⟩
  rw [mem_blk]
  obtain ⟨-, -, -, -, -, -, -, -, -, -, e50, e51⟩ := idx_facts t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- The output array after the region. -/
theorem final (c : Dev nD) : (dats m 0 c).arrAt 5 cfg0.N
    = packedNet (V m c main_v23) (V m c main_v12) (V m c main_v19) (V m c main_v13) (V m c main_v22) :=
  (dats m 0 c).arrAt_eq_of_cover 5 _ (fun t _ => flushed_eq m c t) cover

end Cert.KernelIdeal.Blocks

end
-- ==== Proof.Alg.lean ====
/-
  The algebra that joins the two programs to the specification.

  Both programs compute the specification's double sum over a LARGER index set: one pads the hidden axis from 50 to
  128 units with zero weights, the other pads it to 64 and lays sixteen batch rows side by side against
  block-diagonal weights.  Every extra term is a product with an exact zero, and on the extended reals a product
  with zero is zero whatever the other factor; the terms that remain are indexed by an injection of the small index
  set into the large one.  No distributive law and no finiteness is used: only that a sum may drop zero terms and be
  re-indexed along an injection.
-/
import proofs.«101277_g2000404146032023_pallasbulk_324_6_alg».proof.Proof.Spec

noncomputable section

open scoped BigOperators

namespace Cert.Mlp

open Idealize.ShloMosaic Idealize.ShloMosaic.ValueIdx

/-- A sum over `Fin N` whose terms vanish off the image of an injection `e` is the sum along `e`. -/
theorem sum_along_inj {M : Type*} [AddCommMonoid M] {n N : Nat} (e : Fin n → Fin N) (he : Function.Injective e)
    (g : Fin N → M) (h0 : ∀ c, (∀ l, e l ≠ c) → g c = 0) : ∑ c, g c = ∑ l, g (e l) := by
  symm
  exact Finset.sum_of_injOn e (fun a _ b _ h => he h) (fun a _ => Finset.mem_coe.2 (Finset.mem_univ _))
    (fun c _ hc => h0 c fun l hl => hc ⟨l, Finset.mem_coe.2 (Finset.mem_univ _), hl⟩) (fun _ _ => rfl)

/-- Two rank-2 indices with equal coordinates are equal. -/
theorem ix2_congr {n0 n1 : Nat} {a a' : Fin n0} {b b' : Fin n1} (ha : a.val = a'.val) (hb : b.val = b'.val) :
    ix2 a b = ix2 a' b' := by rw [Fin.ext ha, Fin.ext hb]

/-! ## The named arrays at an index given by coordinates -/

theorem w1pad_apply (n : Nat) (w1 : SW1.Idx → EReal) (k : Fin 8) (c : Fin n) :
    w1pad n w1 (ix2 k c) = if h : c.val < 50 then w1 (ix2 k ⟨c.val, h⟩) else 0 := rfl
theorem b1pad_apply (n : Nat) (b1 : SB1.Idx → EReal) (z : Fin 1) (c : Fin n) :
    b1pad n b1 (ix2 z c) = if h : c.val < 50 then b1 (ix2 z ⟨c.val, h⟩) else 0 := rfl
theorem w2pad64_apply (w2 : SW2.Idx → EReal) (l : Fin 64) (a : Fin 4) :
    w2pad64 w2 (ix2 l a) = if h : l.val < 50 then w2 (ix2 ⟨l.val, h⟩ a) else 0 := rfl
theorem w2pad128_apply (w2 : SW2.Idx → EReal) (l : Fin 128) (a : Fin 128) :
    w2pad128 w2 (ix2 l a) = if h : l.val < 50 ∧ a.val < 4 then w2 (ix2 ⟨l.val, h.1⟩ ⟨a.val, h.2⟩) else 0 := rfl
theorem b2pad128_apply (b2 : SB2.Idx → EReal) (z : Fin 1) (a : Fin 128) :
    b2pad128 b2 (ix2 z a) = if h : a.val < 4 then b2 (ix2 z ⟨a.val, h⟩) else 0 := rfl
theorem xpk_apply (x : SX.Idx → EReal) (p : Fin 65536) (k : Fin 128) :
    xpk x (ix2 p k) = x (ix2 ⟨p.val * 16 + k.val / 8, by have := p.isLt; have := k.isLt; omega⟩ ⟨k.val % 8, Nat.mod_lt _ (by norm_num)⟩) := rfl
theorem w1big_apply (w1 : SW1.Idx → EReal) (k : Fin 128) (c : Fin 1024) :
    w1big w1 (ix2 k c) = if k.val / 8 = c.val / 64 then
      w1pad 64 w1 (ix2 ⟨k.val % 8, Nat.mod_lt _ (by norm_num)⟩ ⟨c.val % 64, Nat.mod_lt _ (by norm_num)⟩) else 0 := rfl
theorem w2big_apply (w2 : SW2.Idx → EReal) (c : Fin 1024) (q : Fin 64) :
    w2big w2 (ix2 c q) = if c.val / 64 = q.val / 4 then
      w2pad64 w2 (ix2 ⟨c.val % 64, Nat.mod_lt _ (by norm_num)⟩ ⟨q.val % 4, Nat.mod_lt _ (by norm_num)⟩) else 0 := rfl
theorem b1big_apply (b1 : SB1.Idx → EReal) (z : Fin 1) (c : Fin 1024) :
    b1big b1 (ix2 z c) = b1pad 64 b1 (ix2 z ⟨c.val % 64, Nat.mod_lt _ (by norm_num)⟩) := rfl
theorem b2big_apply (b2 : SB2.Idx → EReal) (z : Fin 1) (q : Fin 64) :
    b2big b2 (ix2 z q) = b2 (ix2 z ⟨q.val % 4, Nat.mod_lt _ (by norm_num)⟩) := rfl

/-- A padded first-layer entry inside the original width is the original entry. -/
theorem w1pad_lt (n : Nat) (w1 : SW1.Idx → EReal) (k : Fin 8) (c : Fin n) (l : Fin 50) (h : c.val = l.val) :
    w1pad n w1 (ix2 k c) = w1 (ix2 k l) := by
  rw [w1pad_apply, dif_pos (by omega : c.val < 50)]
  exact congrArg w1 (ix2_congr rfl h)
/-- A padded first-bias entry inside the original width is the original entry. -/
theorem b1pad_lt (n : Nat) (b1 : SB1.Idx → EReal) (z : Fin 1) (c : Fin n) (l : Fin 50) (h : c.val = l.val) :
    b1pad n b1 (ix2 z c) = b1 (ix2 z l) := by
  rw [b1pad_apply, dif_pos (by omega : c.val < 50)]
  exact congrArg b1 (ix2_congr rfl h)

/-! ## The program that pads to 128 -/

/-- Output `a` of batch row `r`, computed over the hidden axis padded to 128 and read at output lane `A = a`:
    hidden units 50 … 127 meet a zero row of the padded second layer. -/
theorem padded_eq (x : SX.Idx → EReal) (w1 : SW1.Idx → EReal) (b1 : SB1.Idx → EReal) (w2 : SW2.Idx → EReal) (b2 : SB2.Idx → EReal)
    (r : Fin 1048576) (a : Fin 4) (A : Fin 128) (hA : A.val = a.val) :
    (∑ c : Fin 128, max ((∑ k : Fin 8, x (ix2 r k) * w1pad 128 w1 (ix2 k c)) + b1pad 128 b1 (ix2 (0 : Fin 1) c)) 0 * w2pad128 w2 (ix2 c A))
      + b2pad128 b2 (ix2 (0 : Fin 1) A) = G x w1 b1 w2 b2 (ix2 r a) := by
  have hb2 : b2pad128 b2 (ix2 (0 : Fin 1) A) = b2 (ix2 (0 : Fin 1) a) := by
    rw [b2pad128_apply, dif_pos (by omega : A.val < 4)]
    exact congrArg b2 (ix2_congr rfl hA)
  show _ = (∑ l : Fin 50, hid x w1 b1 r l * w2 (ix2 l a)) + b2 (ix2 (0 : Fin 1) a)
  rw [hb2]
  refine congrArg (· + b2 (ix2 (0 : Fin 1) a)) ?_
  rw [sum_along_inj (Fin.castLE (by norm_num : 50 ≤ 128)) (Fin.castLE_injective _)]
  · refine Finset.sum_congr rfl fun l _ => ?_
    have hl : l.val < 50 := l.isLt
    have hw2 : w2pad128 w2 (ix2 (Fin.castLE (by norm_num : 50 ≤ 128) l) A) = w2 (ix2 l a) := by
      rw [w2pad128_apply, dif_pos (⟨by show l.val < 50; omega, by omega⟩ : (Fin.castLE (by norm_num : 50 ≤ 128) l).val < 50 ∧ A.val < 4)]
      exact congrArg w2 (ix2_congr rfl hA)
    rw [hw2]
    unfold hid
    simp only [w1pad_lt 128 w1 _ (Fin.castLE (by norm_num : 50 ≤ 128) l) l rfl, b1pad_lt 128 b1 _ (Fin.castLE (by norm_num : 50 ≤ 128) l) l rfl]
  · intro c hc
    have hc50 : ¬ (c.val < 50 ∧ A.val < 4) := by
      rintro ⟨h, -⟩
      exact hc ⟨c.val, h⟩ (Fin.ext rfl)
    rw [w2pad128_apply, dif_neg hc50, mul_zero]

/-! ## The program that packs sixteen rows and pads to 64 -/

/-- The first packed product at packed row `P`, packed hidden lane `c`: only the eight lanes of batch row
    `16 P + c / 64` meet a non-zero block of the block-diagonal weights. -/
theorem packed_inner (x : SX.Idx → EReal) (w1 : SW1.Idx → EReal) (P : Fin 65536) (c : Fin 1024) (R : Fin 1048576)
    (hR : R.val = P.val * 16 + c.val / 64) (l : Fin 64) (hl : l.val = c.val % 64) :
    ∑ k : Fin 128, xpk x (ix2 P k) * w1big w1 (ix2 k c) = ∑ k' : Fin 8, x (ix2 R k') * w1pad 64 w1 (ix2 k' l) := by
  have hc : c.val < 1024 := c.isLt
  let e : Fin 8 → Fin 128 := fun k' => ⟨8 * (c.val / 64) + k'.val, by have := k'.isLt; omega⟩
  have he : Function.Injective e := fun a b h => Fin.ext (by have := congrArg Fin.val h; simp only [e] at this; omega)
  rw [sum_along_inj e he]
  · refine Finset.sum_congr rfl fun k' _ => ?_
    have hk : k'.val < 8 := k'.isLt
    have hev : (e k').val = 8 * (c.val / 64) + k'.val := rfl
    rw [xpk_apply, w1big_apply, if_pos (by rw [hev]; omega)]
    refine congrArg₂ (· * ·) (congrArg x (ix2_congr ?_ ?_)) (congrArg (w1pad 64 w1) (ix2_congr ?_ ?_))
    · show P.val * 16 + (e k').val / 8 = R.val; rw [hev]; omega
    · show (e k').val % 8 = k'.val; rw [hev]; omega
    · show (e k').val % 8 = k'.val; rw [hev]; omega
    · show c.val % 64 = l.val; omega
  · intro k hk
    have hne : ¬ (k.val / 8 = c.val / 64) := by
      intro h
      have hk8 : k.val % 8 < 8 := Nat.mod_lt _ (by norm_num)
      exact hk ⟨k.val % 8, hk8⟩ (Fin.ext (by show 8 * (c.val / 64) + k.val % 8 = k.val; omega))
    rw [w1big_apply, if_neg hne, mul_zero]

/-- Output `a` of batch row `r`, computed in the packed layout at packed row `P = r / 16` and packed output lane
    `Q = 4 (r % 16) + a`: of the 1024 packed hidden lanes only the fifty of batch row `r` itself meet a non-zero entry
    of the block-diagonal second layer. -/
theorem packed_eq (x : SX.Idx → EReal) (w1 : SW1.Idx → EReal) (b1 : SB1.Idx → EReal) (w2 : SW2.Idx → EReal) (b2 : SB2.Idx → EReal)
    (r : Fin 1048576) (a : Fin 4) (P : Fin 65536) (Q : Fin 64) (hP : P.val = r.val / 16) (hQ : Q.val = (r.val % 16) * 4 + a.val) :
    (∑ c : Fin 1024, max ((∑ k : Fin 128, xpk x (ix2 P k) * w1big w1 (ix2 k c)) + b1big b1 (ix2 (0 : Fin 1) c)) 0 * w2big w2 (ix2 c Q))
      + b2big b2 (ix2 (0 : Fin 1) Q) = G x w1 b1 w2 b2 (ix2 r a) := by
  have ha : a.val < 4 := a.isLt
  have hr : r.val < 1048576 := r.isLt
  have hb2 : b2big b2 (ix2 (0 : Fin 1) Q) = b2 (ix2 (0 : Fin 1) a) := by
    rw [b2big_apply]
    exact congrArg b2 (ix2_congr rfl (by show Q.val % 4 = a.val; omega))
  show _ = (∑ l : Fin 50, hid x w1 b1 r l * w2 (ix2 l a)) + b2 (ix2 (0 : Fin 1) a)
  rw [hb2]
  refine congrArg (· + b2 (ix2 (0 : Fin 1) a)) ?_
  let e : Fin 50 → Fin 1024 := fun l => ⟨64 * (r.val % 16) + l.val, by have := l.isLt; omega⟩
  have he : Function.Injective e := fun u v h => Fin.ext (by have := congrArg Fin.val h; simp only [e] at this; omega)
  rw [sum_along_inj e he]
  · refine Finset.sum_congr rfl fun l _ => ?_
    have hl : l.val < 50 := l.isLt
    have hev : (e l).val = 64 * (r.val % 16) + l.val := rfl
    have hl64 : l.val < 64 := by omega
    have hw2 : w2big w2 (ix2 (e l) Q) = w2 (ix2 l a) := by
      rw [w2big_apply, if_pos (by rw [hev]; omega), w2pad64_apply, dif_pos (by show (e l).val % 64 < 50; rw [hev]; omega)]
      exact congrArg w2 (ix2_congr (by show (e l).val % 64 = l.val; rw [hev]; omega) (by show Q.val % 4 = a.val; omega))
    rw [hw2, packed_inner x w1 P (e l) r (by rw [hev]; omega) ⟨l.val, hl64⟩ (by show l.val = (e l).val % 64; rw [hev]; omega),
      b1big_apply]
    unfold hid
    simp only [w1pad_lt 64 w1 _ (⟨l.val, hl64⟩ : Fin 64) l rfl]
    rw [b1pad_lt 64 b1 (0 : Fin 1) _ l (by show (e l).val % 64 = l.val; rw [hev]; omega)]
  · intro c hc
    by_cases hd : c.val / 64 = Q.val / 4
    · have hge : ¬ (c.val % 64 < 50) := by
        intro h
        exact hc ⟨c.val % 64, h⟩ (Fin.ext (by show 64 * (r.val % 16) + c.val % 64 = c.val; omega))
      rw [w2big_apply, if_pos hd, w2pad64_apply, dif_neg hge, mul_zero]
    · rw [w2big_apply, if_neg hd, mul_zero]

end Cert.Mlp

end
-- ==== Proof.KerRun.lean ====
/-
  The packed program's result, read off its run.

  After the region the host reads the packed output [65536, 64] back as [1048576, 4]: entry (r, a) is packed row
  `r / 16`, packed lane `4 (r % 16) + a`.  With the five arrays the region is handed named (the packed input, the
  block-diagonal layers, the repeated biases), that entry is the specification's `G` at (r, a).
-/
import proofs.«101277_g2000404146032023_pallasbulk_324_6_alg».proof.Proof.KerBlocks
import proofs.«101277_g2000404146032023_pallasbulk_324_6_alg».proof.Proof.Alg
import Idealize.ShloMosaic.Lib.StableHlo.Run
import Idealize.ShloMosaic.Lib.Pipeline.FrameSuffix

set_option maxRecDepth 16384

noncomputable section

open scoped BigOperators

namespace Cert.KernelIdeal.Run

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ) (ρ : Dev nD → PrngReg)

/-- The program's result buffer after the host's last line, as the specification of the argument arrays. -/
theorem tail (c : Dev nD)
    (hx : (V m c main_v23 : S65536x128.Idx → EReal) = Cert.Mlp.xpk (m ((c : Thread nD τ).loc main_arg0)))
    (hw1 : (V m c main_v12 : S128x1024.Idx → EReal) = Cert.Mlp.w1big (m ((c : Thread nD τ).loc main_arg1)))
    (hb1 : (V m c main_v19 : S1x1024.Idx → EReal) = Cert.Mlp.b1big (m ((c : Thread nD τ).loc main_arg2)))
    (hw2 : (V m c main_v13 : S1024x64.Idx → EReal) = Cert.Mlp.w2big (m ((c : Thread nD τ).loc main_arg3)))
    (hb2 : (V m c main_v22 : S1x64.Idx → EReal) = Cert.Mlp.b2big (m ((c : Thread nD τ).loc main_arg4))) :
    Pipeline.afterTail₀ cfgs (dats m) 0 (V0 m) [hostOps1] c main_v25
      = Cert.Mlp.G (m ((c : Thread nD τ).loc main_arg0)) (m ((c : Thread nD τ).loc main_arg1)) (m ((c : Thread nD τ).loc main_arg2))
          (m ((c : Thread nD τ).loc main_arg3)) (m ((c : Thread nD τ).loc main_arg4)) := by
  have hW : Pipeline.withArrays spec0 c (V0 m c) (fun w => (dats m 0 c).arrAt w cfg0.N) (Proc.devRef .tc (Pipeline.arrRef spec0 5))
      = packedNet (V m c main_v23) (V m c main_v12) (V m c main_v19) (V m c main_v13) (V m c main_v22) :=
    (Pipeline.withArrays_arr spec0 launch0.win.arr_inj c _ _ 5).trans (final m c)
  unfold Pipeline.afterTail₀
  show StableHlo.after hostOps1 _ (Proc.devRef .tc main_v25) = _
  after_results
  funext i
  obtain ⟨r, a, rfl⟩ : ∃ (r : Fin 1048576) (a : Fin 4), i = ix2 r a := ⟨i 0, i 1, eq_ix2 i⟩
  show shapeCast S1048576x4 (Pipeline.withArrays spec0 c (V0 m c) (fun w => (dats m 0 c).arrAt w cfg0.N) (Proc.devRef .tc (Pipeline.arrRef spec0 5)))
      shapeCasts_S65536x64_S1048576x4 (ix2 r a) = _
  rw [hW, hx, hw1, hb1, hw2, hb2]
  have hr : r.val < 1048576 := r.isLt
  have ha : a.val < 4 := a.isLt
  let P : Fin 65536 := ⟨r.val / 16, by omega⟩
  let Q : Fin 64 := ⟨(r.val % 16) * 4 + a.val, by omega⟩
  refine (shapeCast_apply _ shapeCasts_S65536x64_S1048576x4 (ix2 r a) (ix2 P Q : S65536x64.Idx) ?_).trans ?_
  · rw [Shape.rowMajor_val_two, Shape.rowMajor_val_two]
    show (r.val / 16) * 64 + ((r.val % 16) * 4 + a.val) = r.val * 4 + a.val
    omega
  · exact Cert.Mlp.packed_eq _ _ _ _ _ r a P Q rfl rfl

/-- Every weakly fair execution of the packed program ends with its result at the specification of the argument
    arrays, and the argument arrays as launched. -/
theorem run
    (hx : ∀ c : Dev nD, (V m c main_v23 : S65536x128.Idx → EReal) = Cert.Mlp.xpk (m ((c : Thread nD τ).loc main_arg0)))
    (hw1 : ∀ c : Dev nD, (V m c main_v12 : S128x1024.Idx → EReal) = Cert.Mlp.w1big (m ((c : Thread nD τ).loc main_arg1)))
    (hb1 : ∀ c : Dev nD, (V m c main_v19 : S1x1024.Idx → EReal) = Cert.Mlp.b1big (m ((c : Thread nD τ).loc main_arg2)))
    (hw2 : ∀ c : Dev nD, (V m c main_v13 : S1024x64.Idx → EReal) = Cert.Mlp.w2big (m ((c : Thread nD τ).loc main_arg3)))
    (hb2 : ∀ c : Dev nD, (V m c main_v22 : S1x64.Idx → EReal) = Cert.Mlp.b2big (m ((c : Thread nD τ).loc main_arg4))) :
    θ_run defs (onTc (τ := τ) (main (F := Ideal))) ⟨m, fun _ => 0, ρ⟩ (fun r => ∀ c : Dev nD,
      r.2.mem ((c.tc : Thread nD τ).loc main_v25)
        = Cert.Mlp.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v25 (Pipeline.mem_restRefs_of main_v25 (by decide) (by decide))).trans
        (tail m c (hx c) (hw1 c) (hb1 c) (hw2 c) (hb2 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefBody.lean ====
/-
  The padded program's body on one block, read at an index.

  The body loads a block of 256 batch rows (8 features), the first layer padded to [8, 128], its bias row [1, 128],
  the second layer padded to [128, 128] and its bias row [1, 128], and stores
      (max (X · W₁ + b₁) 0) · W₂ + b₂ .
  Each matrix product into a zero accumulator is the plain sum over the contracted axis, the bias rows are laid along
  every row, and the clamp is the maximum with the zero word; so entry (p, q) of what is stored is
      Σ_c max (Σ_k X[p,k] · W₁[k,c] + b₁[0,c]) 0 · W₂[c,q] + b₂[0,q] .
-/
import proofs.«101277_g2000404146032023_pallasbulk_324_6_alg».proof.Proof.Gen.ReferenceIdeal.Skeleton
import Idealize.ShloMosaic.Lib.StackMember
import Idealize.ShloMosaic.Lib.ValueLayout

noncomputable section

open scoped BigOperators

namespace Cert.ReferenceIdeal.Body

open Idealize.ShloMosaic Idealize.ShloMosaic.ValueIdx Cert.ReferenceIdeal Cert.ReferenceIdeal.Gen

/-- The two-layer function of one block of batch rows, at row `p` and output lane `q`. -/
def blockNet (x0 : FVec Ideal S256x8 .f32) (x1 : FVec Ideal S8x128 .f32) (x2 : FVec Ideal S1x128 .f32)
    (x3 : FVec Ideal S128x128 .f32) (x4 : FVec Ideal S1x128 .f32) (p : Fin 256) (q : Fin 128) : EReal :=
  (∑ c : Fin 128, max ((∑ k : Fin 8, x0 (ix2 p k) * x1 (ix2 k c)) + x2 (ix2 (0 : Fin 1) c)) 0 * x3 (ix2 c q))
    + x4 (ix2 (0 : Fin 1) q)

/-- The first product, into a zero accumulator, is the sum over the 8 features. -/
theorem layer1_apply (A : FVec Ideal S256x8 .f32) (B : FVec Ideal S8x128 .f32) (p : Fin 256) (c : Fin 128) :
    matmul dot_S256x8_S8x128_S256x128_1_0_0_1_n_n none A B (constant S256x128 .f32 0x00000000#32) (ix2 p c)
      = ∑ k : Fin 8, A (ix2 p k) * B (ix2 k c) := by
  show matmul (DotDims.plain 256 8 128) none A B (constant (⟨2, ![256, 128]⟩ : Shape) .f32 0x00000000#32) (ix2 p c) = _
  rw [matmul_zero_eq_dotGeneral]
  exact StackMember.dotGeneral_plain_apply none A B p c

/-- The second product, into a zero accumulator, is the sum over the 128 padded hidden units. -/
theorem layer2_apply (A : FVec Ideal S256x128 .f32) (B : FVec Ideal S128x128 .f32) (p : Fin 256) (q : Fin 128) :
    matmul dot_S256x128_S128x128_S256x128_1_0_0_1_n_n none A B (constant S256x128 .f32 0x00000000#32) (ix2 p q)
      = ∑ c : Fin 128, A (ix2 p c) * B (ix2 c q) := by
  show matmul (DotDims.plain 256 128 128) none A B (constant (⟨2, ![256, 128]⟩ : Shape) .f32 0x00000000#32) (ix2 p q) = _
  rw [matmul_zero_eq_dotGeneral]
  exact StackMember.dotGeneral_plain_apply none A B p q

/-- What the body stores, at row `p` and lane `q` of the block. -/
theorem pay_apply (x0 : Vec Ideal S256x8 .f32) (x1 : Vec Ideal S8x128 .f32) (x2 : Vec Ideal S1x128 .f32)
    (x3 : Vec Ideal S128x128 .f32) (x4 : Vec Ideal S1x128 .f32) (p : Fin 256) (q : Fin 128) :
    k0_pay1 (F := Ideal) x0 x1 x2 x3 x4 (ix2 p q) = blockNet x0 x1 x2 x3 x4 p q := by
  unfold k0_pay1 blockNet
  simp only [shapeCast_self, addf_apply, layer2_apply, maximumf_apply, layer1_apply, broadcastTo_1b_ab_apply, broadcast_apply]
  have hz : (FloatOps.ofBits (F := Ideal) FTy.f32 0x00000000#32 : EReal) = 0 := Ideal.ofBits_zero_f32
  rw [hz]

end Cert.ReferenceIdeal.Body

end
-- ==== Proof.RefBlocks.lean ====
/-
  The padded program's output array after its region: the two-layer function of the five arrays the region is
  handed, index by index.

  The grid has 4096 points; point `t` stages rows 256 t … 256 t + 255 of the input and of the output, and the four
  padded weight and bias arrays whole.  So what point `t` writes back is the body's function of those rows, and row
  `r` of the output is written by point `r / 256`: the blocks tile the output.
-/
import proofs.«101277_g2000404146032023_pallasbulk_324_6_alg».proof.Proof.Gen.ReferenceIdeal.Frame
import proofs.«101277_g2000404146032023_pallasbulk_324_6_alg».proof.Proof.RefBody
import Idealize.ShloMosaic.Lib.Pipeline.Value

set_option maxRecDepth 16384

noncomputable section

open scoped BigOperators

namespace Cert.ReferenceIdeal.Blocks

open Idealize.ShloMosaic Idealize.ShloMosaic.TcCoe Idealize.ShloMosaic.ValueIdx Idealize.SL.Sem
open Cert.ReferenceIdeal Cert.ReferenceIdeal.Gen Cert.ReferenceIdeal.Body
open Idealize.ShloMosaic.Pipeline (Dat Cfg Window)

variable (m : (ℓ : Loc nD τ sig) → Buf (Elt Ideal) ℓ) (ρ : Dev nD → PrngReg)

/-- The two-layer function over whole arrays: batch row `i 0`, padded output lane `i 1`. -/
def paddedNet (X : FVec Ideal S1048576x8 .f32) (W1 : FVec Ideal S8x128 .f32) (B1 : FVec Ideal S1x128 .f32)
    (W2 : FVec Ideal S128x128 .f32) (B2 : FVec Ideal S1x128 .f32) : S1048576x128.Idx → EReal :=
  fun i => (∑ c : Fin 128, max ((∑ k : Fin 8, X (ix2 (i 0) k) * W1 (ix2 k c)) + B1 (ix2 (0 : Fin 1) c)) 0 * W2 (ix2 c (i 1)))
    + B2 (ix2 (0 : Fin 1) (i 1))

theorem hz : (![0, 0] : Fin 2 → Nat) = fun _ => 0 := funext fun a => by fin_cases a <;> rfl

/-- The printed index maps over the grid: the input and the output move one block of rows per point, the weights and
    biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 := by
  intro t
  have ht : t.val < 4096 := t.isLt
  have h0 : win0_0.index t (0 : Fin 2) = t.val := by
    show (BitVec.ofNat 32 (t.val / 1 % 4096)).toNat = t.val
    rw [BitVec.toNat_ofNat]; omega
  have h5 : win0_5.index t (0 : Fin 2) = t.val := by
    show (BitVec.ofNat 32 (t.val / 1 % 4096)).toNat = t.val
    rw [BitVec.toNat_ofNat]; omega
  exact ⟨h0, rfl, rfl, rfl, rfl, rfl, rfl, rfl, rfl, rfl, h5, rfl⟩

/-- Row `p` of the input block at point `t` is row `256 t + p` of the input. This holds of any contents `A` of the array. -/
theorem blk0_read (c : Dev nD) (A : Buf (Elt Ideal) ((c : Thread nD τ).loc main_v15)) (t : Fin cfg0.N) (p : Fin 256) (k : Fin 8) (r : Fin 1048576) (hr : r.val = t.val * 256 + p.val) :
    ((cfg0.win 0).blk t).view.read (Elt Ideal) A (ix2 p k) = A (ix2 r k) := by
  show A (((cfg0.win 0).blk t).view.emb (ix2 p k)) = _
  refine congrArg A (funext fun a => Fin.ext ?_)
  obtain ⟨e00, e01, -⟩ := idx_facts t
  match a with
  | ⟨0, _⟩ => show win0_0.index t (0 : Fin 2) * 256 + 1 * p.val = r.val; omega
  | ⟨1, _⟩ => show win0_0.index t (1 : Fin 2) * 8 + 1 * k.val = k.val; omega

/-- In particular of the array the region is handed. -/
theorem read0 (c : Dev nD) (t : Fin cfg0.N) (p : Fin 256) (k : Fin 8) (r : Fin 1048576) (hr : r.val = t.val * 256 + p.val) :
    iblk m c 0 t (ix2 p k) = V m c main_v15 (ix2 r k) := by
  unfold iblk
  exact blk0_read c _ t p k r hr

/-- The padded first layer is staged whole. This holds of any contents `A` of the array. -/
theorem blk1_read (c : Dev nD) (A : Buf (Elt Ideal) ((c : Thread nD τ).loc main_v2)) (t : Fin cfg0.N) (k : Fin 8) (n : Fin 128) :
    ((cfg0.win 1).blk t).view.read (Elt Ideal) A (ix2 k n) = A (ix2 k n) := by
  show A (((cfg0.win 1).blk t).view.emb (ix2 k n)) = _
  refine congrArg A (funext fun a => Fin.ext ?_)
  obtain ⟨-, -, e10, e11, -⟩ := idx_facts t
  match a with
  | ⟨0, _⟩ => show win0_1.index t (0 : Fin 2) * 8 + 1 * k.val = k.val; omega
  | ⟨1, _⟩ => show win0_1.index t (1 : Fin 2) * 128 + 1 * n.val = n.val; omega

/-- In particular of the array the region is handed. -/
theorem read1 (c : Dev nD) (t : Fin cfg0.N) (k : Fin 8) (n : Fin 128) :
    iblk m c 1 t (ix2 k n) = V m c main_v2 (ix2 k n) := by
  unfold iblk
  exact blk1_read c _ t k n

/-- The padded first bias row is staged whole. This holds of any contents `A` of the array. -/
theorem blk2_read (c : Dev nD) (A : Buf (Elt Ideal) ((c : Thread nD τ).loc main_v5)) (t : Fin cfg0.N) (z : Fin 1) (n : Fin 128) :
    ((cfg0.win 2).blk t).view.read (Elt Ideal) A (ix2 z n) = A (ix2 z n) := by
  show A (((cfg0.win 2).blk t).view.emb (ix2 z n)) = _
  refine congrArg A (funext fun a => Fin.ext ?_)
  obtain ⟨-, -, -, -, e20, e21, -⟩ := idx_facts t
  match a with
  | ⟨0, _⟩ => show win0_2.index t (0 : Fin 2) * 1 + 1 * z.val = z.val; omega
  | ⟨1, _⟩ => show win0_2.index t (1 : Fin 2) * 128 + 1 * n.val = n.val; omega

/-- In particular of the array the region is handed. -/
theorem read2 (c : Dev nD) (t : Fin cfg0.N) (z : Fin 1) (n : Fin 128) :
    iblk m c 2 t (ix2 z n) = V m c main_v5 (ix2 z n) := by
  unfold iblk
  exact blk2_read c _ t z n

/-- The padded second layer is staged whole. This holds of any contents `A` of the array. -/
theorem blk3_read (c : Dev nD) (A : Buf (Elt Ideal) ((c : Thread nD τ).loc main_v10)) (t : Fin cfg0.N) (n : Fin 128) (q : Fin 128) :
    ((cfg0.win 3).blk t).view.read (Elt Ideal) A (ix2 n q) = A (ix2 n q) := by
  show A (((cfg0.win 3).blk t).view.emb (ix2 n q)) = _
  refine congrArg A (funext fun a => Fin.ext ?_)
  obtain ⟨-, -, -, -, -, -, e30, e31, -⟩ := idx_facts t
  match a with
  | ⟨0, _⟩ => show win0_3.index t (0 : Fin 2) * 128 + 1 * n.val = n.val; omega
  | ⟨1, _⟩ => show win0_3.index t (1 : Fin 2) * 128 + 1 * q.val = q.val; omega

/-- In particular of the array the region is handed. -/
theorem read3 (c : Dev nD) (t : Fin cfg0.N) (n : Fin 128) (q : Fin 128) :
    iblk m c 3 t (ix2 n q) = V m c main_v10 (ix2 n q) := by
  unfold iblk
  exact blk3_read c _ t n q

/-- The padded second bias row is staged whole. This holds of any contents `A` of the array. -/
theorem blk4_read (c : Dev nD) (A : Buf (Elt Ideal) ((c : Thread nD τ).loc main_v13)) (t : Fin cfg0.N) (z : Fin 1) (q : Fin 128) :
    ((cfg0.win 4).blk t).view.read (Elt Ideal) A (ix2 z q) = A (ix2 z q) := by
  show A (((cfg0.win 4).blk t).view.emb (ix2 z q)) = _
  refine congrArg A (funext fun a => Fin.ext ?_)
  obtain ⟨-, -, -, -, -, -, -, -, e40, e41, -⟩ := idx_facts t
  match a with
  | ⟨0, _⟩ => show win0_4.index t (0 : Fin 2) * 1 + 1 * z.val = z.val; omega
  | ⟨1, _⟩ => show win0_4.index t (1 : Fin 2) * 128 + 1 * q.val = q.val; omega

/-- In particular of the array the region is handed. -/
theorem read4 (c : Dev nD) (t : Fin cfg0.N) (z : Fin 1) (q : Fin 128) :
    iblk m c 4 t (ix2 z q) = V m c main_v13 (ix2 z q) := by
  unfold iblk
  exact blk4_read c _ t z q

/-- Entry (p, q) of the output block at point `t` sits at row `256 t + p`, lane `q` of the output array. -/
theorem emb5 (t : Fin cfg0.N) (p : Fin 256) (q : Fin 128) (r : Fin 1048576) (hr : r.val = t.val * 256 + p.val) :
    ((cfg0.win 5).blk t).view.emb (ix2 p q) = (ix2 r q : S1048576x128.Idx) := by
  funext a; apply Fin.ext
  obtain ⟨-, -, -, -, -, -, -, -, -, -, e50, e51⟩ := idx_facts t
  match a with
  | ⟨0, _⟩ => show win0_5.index t (0 : Fin 2) * 256 + 1 * p.val = r.val; omega
  | ⟨1, _⟩ => show win0_5.index t (1 : Fin 2) * 128 + 1 * q.val = q.val; omega

/-- What point `t` writes back is block `t` of the two-layer function of the arrays the region is handed. -/
theorem flushed_eq (c : Dev nD) (t : Fin cfg0.N) :
    (dats m 0 c).flushed 5 t = ((cfg0.win 5).blk t).view.read (Elt Ideal)
      (paddedNet (V m c main_v15) (V m c main_v2) (V m c main_v5) (V m c main_v10) (V m c main_v13)) := by
  show (cfg0.win 5).cut (grid0.coords t) ((dats m 0 c).after 5 t) = _
  rw [after0_5]
  unfold out0_5
  rw [View.canon_unit_zero hz]
  simp only [View.ld_unit_zero (S := S256x8) hz, View.ld_unit_zero (S := S8x128) hz, View.ld_unit_zero (S := S1x128) hz,
    View.ld_unit_zero (S := S128x128) hz]
  generalize hX : k0_pay1 (F := Ideal) (iblk m c 0 t) (iblk m c 1 t) (iblk m c 2 t) (iblk m c 3 t) (iblk m c 4 t) = X
  generalize hN : paddedNet (V m c main_v15) (V m c main_v2) (V m c main_v5) (V m c main_v10) (V m c main_v13) = N
  funext j
  obtain ⟨p, q, rfl⟩ : ∃ (p : Fin 256) (q : Fin 128), j = ix2 p q := ⟨j 0, j 1, eq_ix2 j⟩
  have ht : t.val < 4096 := t.isLt
  have hp : p.val < 256 := p.isLt
  let r : Fin 1048576 := ⟨t.val * 256 + p.val, by omega⟩
  have hc : ∀ z : Elt Ideal ((cfg0.win 5).blk t).view.ty.elt,
      _root_.cast (congrArg (Elt Ideal) ((cfg0.win 5).blk t).view.elt_eq) z = z := fun z => rfl
  have hL : (cfg0.win 5).cut (grid0.coords t) X (ix2 p q) = X (ix2 p q) := rfl
  rw [View.read_apply]
  refine hL.trans ?_
  rw [emb5 t p q r rfl]
  refine Eq.trans ?_ (hc _).symm
  rw [← hX, ← hN]
  refine (pay_apply (iblk m c 0 t) (iblk m c 1 t) (iblk m c 2 t) (iblk m c 3 t) (iblk m c 4 t) p q).trans ?_
  unfold blockNet paddedNet
  simp only [read0 m c t p _ r rfl, read1 m c t, read2 m c t, read3 m c t, read4 m c t]

/-- An index of the output is in point `t`'s block iff each coordinate is in the block's range. -/
theorem mem_blk (t : Fin cfg0.N) (i : S1048576x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v16).slice (win0_5.rect t)).set ↔ _
  rw [View.set_slice_whole, Rect.mem_set_unit]
  exact Iff.rfl

/-- Every index of the output is in the block of the point its row falls in. -/
theorem cover (i : S1048576x128.Idx) : ∃ t : Fin cfg0.N, (cfg0.win 5).flush t = true ∧ i ∈ ((cfg0.win 5).blk t).view.set := by
  have hi0 : (i 0).val < 1048576 := (i 0).isLt
  have hi1 : (i 1).val < 128 := (i 1).isLt
  let t : Fin cfg0.N := ⟨(i 0).val / 256, by show (i 0).val / 256 < 4096; omega⟩
  have htv : t.val = (i 0).val / 256 := rfl
  refine ⟨t, flush0_5 t, ?_⟩
  rw [mem_blk]
  obtain ⟨-, -, -, -, -, -, -, -, -, -, e50, e51⟩ := idx_facts t
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

/-- The output array after the region. -/
theorem final (c : Dev nD) : (dats m 0 c).arrAt 5 cfg0.N
    = paddedNet (V m c main_v15) (V m c main_v2) (V m c main_v5) (V m c main_v10) (V m c main_v13) :=
  (dats m 0 c).arrAt_eq_of_cover 5 _ (fun t _ => flushed_eq m c t) cover

end Cert.ReferenceIdeal.Blocks

end
-- ==== Proof.RefRun.lean ====
/-
  The padded program's result, read off its run.

  After the region the host keeps the first four output lanes of the padded output [1048576, 128]: entry (r, a) is
  row `r`, lane `a`.  With the five arrays the region is handed named (the input itself and the zero-padded layers
  and biases), that entry is the specification's `G` at (r, a).
-/
import proofs.«101277_g2000404146032023_pallasbulk_324_6_alg».proof.Proof.RefBlocks
import proofs.«101277_g2000404146032023_pallasbulk_324_6_alg».proof.Proof.Alg
import Idealize.ShloMosaic.Lib.StableHlo.Run
import Idealize.ShloMosaic.Lib.Pipeline.FrameSuffix
import Idealize.ShloMosaic.Lib.ValueLayout

set_option maxRecDepth 16384

noncomputable section

open scoped BigOperators

namespace Cert.ReferenceIdeal.Run

open Idealize.ShloMosaic Idealize.ShloMosaic.TcCoe Idealize.ShloMosaic.ValueIdx Idealize.SL.Sem
open Cert.ReferenceIdeal Cert.ReferenceIdeal.Gen Cert.ReferenceIdeal.Blocks

variable (m : (ℓ : Loc nD τ sig) → Buf (Elt Ideal) ℓ) (ρ : Dev nD → PrngReg)

/-- The program's result buffer after the host's last line, as the specification of the argument arrays. -/
theorem tail (c : Dev nD)
    (hx : (V m c main_v15 : S1048576x8.Idx → EReal) = m ((c : Thread nD τ).loc main_arg0))
    (hw1 : (V m c main_v2 : S8x128.Idx → EReal) = Cert.Mlp.w1pad 128 (m ((c : Thread nD τ).loc main_arg1)))
    (hb1 : (V m c main_v5 : S1x128.Idx → EReal) = Cert.Mlp.b1pad 128 (m ((c : Thread nD τ).loc main_arg2)))
    (hw2 : (V m c main_v10 : S128x128.Idx → EReal) = Cert.Mlp.w2pad128 (m ((c : Thread nD τ).loc main_arg3)))
    (hb2 : (V m c main_v13 : S1x128.Idx → EReal) = Cert.Mlp.b2pad128 (m ((c : Thread nD τ).loc main_arg4))) :
    Pipeline.afterTail₀ cfgs (dats m) 0 (V0 m) [hostOps1] c main_v17
      = Cert.Mlp.G (m ((c : Thread nD τ).loc main_arg0)) (m ((c : Thread nD τ).loc main_arg1)) (m ((c : Thread nD τ).loc main_arg2))
          (m ((c : Thread nD τ).loc main_arg3)) (m ((c : Thread nD τ).loc main_arg4)) := by
  have hW : Pipeline.withArrays spec0 c (V0 m c) (fun w => (dats m 0 c).arrAt w cfg0.N) (Proc.devRef .tc (Pipeline.arrRef spec0 5))
      = paddedNet (V m c main_v15) (V m c main_v2) (V m c main_v5) (V m c main_v10) (V m c main_v13) :=
    (Pipeline.withArrays_arr spec0 launch0.win.arr_inj c _ _ 5).trans (final m c)
  unfold Pipeline.afterTail₀
  show StableHlo.after hostOps1 _ (Proc.devRef .tc main_v17) = _
  after_results
  funext i
  obtain ⟨r, a, rfl⟩ : ∃ (r : Fin 1048576) (a : Fin 4), i = ix2 r a := ⟨i 0, i 1, eq_ix2 i⟩
  show extractStridedSlice S1048576x4 ![0, 0]
      (Pipeline.withArrays spec0 c (V0 m c) (fun w => (dats m 0 c).arrAt w cfg0.N) (Proc.devRef .tc (Pipeline.arrRef spec0 5)))
      slices_S1048576x128_S1048576x4_0_0 (ix2 r a) = _
  rw [hW, hx, hw1, hb1, hw2, hb2]
  have ha : a.val < 4 := a.isLt
  let A : Fin 128 := ⟨a.val, by omega⟩
  refine (slice2_axis1_apply 0 _ slices_S1048576x128_S1048576x4_0_0 r a A (Nat.zero_add _).symm).trans ?_
  exact Cert.Mlp.padded_eq _ _ _ _ _ r a A rfl

/-- Every weakly fair execution of the padded program ends with its result at the specification of the argument
    arrays, and the argument arrays as launched. -/
theorem run
    (hx : ∀ c : Dev nD, (V m c main_v15 : S1048576x8.Idx → EReal) = m ((c : Thread nD τ).loc main_arg0))
    (hw1 : ∀ c : Dev nD, (V m c main_v2 : S8x128.Idx → EReal) = Cert.Mlp.w1pad 128 (m ((c : Thread nD τ).loc main_arg1)))
    (hb1 : ∀ c : Dev nD, (V m c main_v5 : S1x128.Idx → EReal) = Cert.Mlp.b1pad 128 (m ((c : Thread nD τ).loc main_arg2)))
    (hw2 : ∀ c : Dev nD, (V m c main_v10 : S128x128.Idx → EReal) = Cert.Mlp.w2pad128 (m ((c : Thread nD τ).loc main_arg3)))
    (hb2 : ∀ c : Dev nD, (V m c main_v13 : S1x128.Idx → EReal) = Cert.Mlp.b2pad128 (m ((c : Thread nD τ).loc main_arg4))) :
    θ_run defs (onTc (τ := τ) (main (F := Ideal))) ⟨m, fun _ => 0, ρ⟩ (fun r => ∀ c : Dev nD,
      r.2.mem ((c.tc : Thread nD τ).loc main_v17)
        = Cert.Mlp.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans
        (tail m c (hx c) (hw1 c) (hb1 c) (hw2 c) (hb2 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Run

end
-- ==== Proof.lean ====
/-
  Both programs are the two-layer network  q = max (x · w1 + b1) 0 · w2 + b2  on x : [1048576, 8] with fifty hidden
  units and four outputs.

  The first program pads the hidden axis to 64 with zero weights, lays sixteen batch rows side by side in one
  128-lane row, and multiplies by the block-diagonal matrices kron (I₁₆, w1) and kron (I₁₆, w2); the second pads the
  hidden axis and the output axis to 128 with zero weights and keeps the first four output lanes.  Read on the
  extended reals, each entry of either result is the specification's double sum with extra terms, every one a
  product with an exact zero, so both results are the specification `Cert.Mlp.G` of the argument arrays
  (Proof/Alg.lean), whatever the arguments: the claim does not use that the inputs are finite.

  The frames of the three programs are the generated ones; the idealization rewrote nothing, so there is nothing to
  preserve; and the two runs (Proof/KerRun.lean, Proof/RefRun.lean) end with equal results because both end at `G` of
  arguments that agree.
-/
import proofs.«101277_g2000404146032023_pallasbulk_324_6_alg».proof.Defs
import proofs.«101277_g2000404146032023_pallasbulk_324_6_alg».proof.Proof.Gen.Kernel
import proofs.«101277_g2000404146032023_pallasbulk_324_6_alg».proof.Proof.Gen.Kernel.Frame
import proofs.«101277_g2000404146032023_pallasbulk_324_6_alg».proof.Proof.Gen.KernelIdeal
import proofs.«101277_g2000404146032023_pallasbulk_324_6_alg».proof.Proof.Gen.KernelIdeal.Frame
import proofs.«101277_g2000404146032023_pallasbulk_324_6_alg».proof.Proof.Gen.ReferenceIdeal
import proofs.«101277_g2000404146032023_pallasbulk_324_6_alg».proof.Proof.Gen.ReferenceIdeal.Frame
import proofs.«101277_g2000404146032023_pallasbulk_324_6_alg».proof.Proof.Gen.Pre_finite_inputs
import proofs.«101277_g2000404146032023_pallasbulk_324_6_alg».proof.Proof.KerArrays1
import proofs.«101277_g2000404146032023_pallasbulk_324_6_alg».proof.Proof.KerArrays4
import proofs.«101277_g2000404146032023_pallasbulk_324_6_alg».proof.Proof.RefArrays
import proofs.«101277_g2000404146032023_pallasbulk_324_6_alg».proof.Proof.KerRun
import proofs.«101277_g2000404146032023_pallasbulk_324_6_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both programs end with their result at the specification of their argument arrays; the arguments agree. -/
theorem algebraic : Cert.algebraic_KernelIdeal_ReferenceIdeal := by
  intro m ρ m' ρ' _ hagree
  refine ⟨_, Cert.KernelIdeal.Run.run m ρ (Cert.KernelIdeal.Arrays.V_x m) (Cert.KernelIdeal.Arrays.V_w1 m)
    (Cert.KernelIdeal.Arrays.V_b1 m) (Cert.KernelIdeal.Arrays.V_w2 m) (Cert.KernelIdeal.Arrays.V_b2 m), ?_⟩
  refine (θ_run Cert.ReferenceIdeal.defs _ _).mono (fun _ h c => ⟨(h c).1.trans ?_, (h c).2⟩)
    (Cert.ReferenceIdeal.Run.run m' ρ' (Cert.ReferenceIdeal.Arrays.V_x m') (Cert.ReferenceIdeal.Arrays.V_w1 m')
      (Cert.ReferenceIdeal.Arrays.V_b1 m') (Cert.ReferenceIdeal.Arrays.V_w2 m') (Cert.ReferenceIdeal.Arrays.V_b2 m'))
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
